-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x768 : Shape := ⟨3, ![16, 2048, 768]⟩
abbrev S16x2048x1024 : Shape := ⟨3, ![16, 2048, 1024]⟩
abbrev S1024x768 : Shape := ⟨2, ![1024, 768]⟩
abbrev S64x1024 : Shape := ⟨2, ![64, 1024]⟩
abbrev S64 : Shape := ⟨1, ![64]⟩
abbrev S64x64 : Shape := ⟨2, ![64, 64]⟩
abbrev S1024x64 : Shape := ⟨2, ![1024, 64]⟩
abbrev S_ : Shape := ⟨0, ![]⟩

class Facts : Prop where
  bcast_S_S16x2048x768 : S_.BroadcastsInDim S16x2048x768 (![] : Fin 0 → Fin S16x2048x768.rank)
  reducesTo_S16x2048x768_S_d0_1_2 : S16x2048x768.ReducesTo [0, 1, 2] S_
  h_S_ : 0 < S_.numel
  bcast_S_S16x2048x1024 : S_.BroadcastsInDim S16x2048x1024 (![] : Fin 0 → Fin S16x2048x1024.rank)
  reducesTo_S16x2048x1024_S_d0_1_2 : S16x2048x1024.ReducesTo [0, 1, 2] S_
  bcast_S_S1024x768 : S_.BroadcastsInDim S1024x768 (![] : Fin 0 → Fin S1024x768.rank)
  reducesTo_S1024x768_S_d0_1 : S1024x768.ReducesTo [0, 1] S_
  bcast_S_S64x1024 : S_.BroadcastsInDim S64x1024 (![] : Fin 0 → Fin S64x1024.rank)
  reducesTo_S64x1024_S_d0_1 : S64x1024.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S1024x64 : S_.BroadcastsInDim S1024x64 (![] : Fin 0 → Fin S1024x64.rank)
  reducesTo_S1024x64_S_d0_1 : S1024x64.ReducesTo [0, 1] S_

variable [Facts]

def fn_part3 {F : FTy → Type} [FloatOps F] (main_v48 : IVec S_ 1) (main_v49 : FVec F S1024x64 .f32) (main_v50 : FVec F S1024x64 .f32) : IVec S_ 1 :=
  let main_v51 : IVec S1024x64 1 := cmpf .olt main_v49 main_v50
  let main_c_19 : IVec S_ 1 := constantI S_ 1 1#1
  let main_v52 : IVec S_ 1 := (fun x v => Host.reduce IntOp.andi x v reducesTo_S1024x64_S_d0_1 h_S_) main_v51 main_c_19
  let main_v53 : IVec S_ 1 := andi main_v48 main_v52
  main_v53

def fn_part2 {F : FTy → Type} [FloatOps F] (main_arg7 : FVec F S64 .f32) (main_arg8 : FVec F S64x64 .f32) (main_arg9 : FVec F S64 .f32) (main_arg10 : FVec F S1024x64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S1024x64 .f32 := Host.absf main_arg10
  let main_cst_18 : FVec F S_ .f32 := constant S_ .f32 0x7F800000#32
  let main_v50 : FVec F S1024x64 .f32 := broadcastInDim S1024x64 ![] bcast_S_S1024x64 main_cst_18
  fn_part3 (F := F) main_v48 main_v49 main_v50

def fn_part1 {F : FTy → Type} [FloatOps F] (main_arg4 : FVec F S64 .f32) (main_arg5 : FVec F S64 .f32) (main_arg6 : FVec F S64x64 .f32) (main_arg7 : FVec F S64 .f32) (main_arg8 : FVec F S64x64 .f32) (main_arg9 : FVec F S64 .f32) (main_arg10 : FVec F S1024x64 .f32) (main_v13 : IVec S_ 1) (main_v16 : IVec S64x1024 1) : IVec S_ 1 :=
  let main_c_5 : IVec S_ 1 := constantI S_ 1 1#1
  let main_v17 : IVec S_ 1 := (fun x v => Host.reduce IntOp.andi x v reducesTo_S64x1024_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S16x2048x768 .f32) (main_arg1 : FVec F S16x2048x1024 .f32) (main_arg2 : FVec F S1024x768 .f32) (main_arg3 : FVec F S64x1024 .f32) (main_arg4 : FVec F S64 .f32) (main_arg5 : FVec F S64 .f32) (main_arg6 : FVec F S64x64 .f32) (main_arg7 : FVec F S64 .f32) (main_arg8 : FVec F S64x64 .f32) (main_arg9 : FVec F S64 .f32) (main_arg10 : FVec F S1024x64 .f32) : IVec S_ 1 :=
  let main_v0 : FVec F S16x2048x768 .f32 := Host.absf main_arg0
  let main_cst : FVec F S_ .f32 := constant S_ .f32 0x7F800000#32
  let main_v1 : FVec F S16x2048x768 .f32 := broadcastInDim S16x2048x768 ![] bcast_S_S16x2048x768 main_cst
  let main_v2 : IVec S16x2048x768 1 := cmpf .olt main_v0 main_v1
  let main_c : IVec S_ 1 := constantI S_ 1 1#1
  let main_v3 : IVec S_ 1 := (fun x v => Host.reduce IntOp.andi x v reducesTo_S16x2048x768_S_d0_1_2 h_S_) main_v2 main_c
  let main_v4 : FVec F S16x2048x1024 .f32 := Host.absf main_arg1
  let main_cst_0 : FVec F S_ .f32 := constant S_ .f32 0x7F800000#32
  let main_v5 : FVec F S16x2048x1024 .f32 := broadcastInDim S16x2048x1024 ![] bcast_S_S16x2048x1024 main_cst_0
  let main_v6 : IVec S16x2048x1024 1 := cmpf .olt main_v4 main_v5
  let main_c_1 : IVec S_ 1 := constantI S_ 1 1#1
  let main_v7 : IVec S_ 1 := (fun x v => Host.reduce IntOp.andi x v reducesTo_S16x2048x1024_S_d0_1_2 h_S_) main_v6 main_c_1
  let main_v8 : IVec S_ 1 := andi main_v3 main_v7
  let main_v9 : FVec F S1024x768 .f32 := Host.absf main_arg2
  let main_cst_2 : FVec F S_ .f32 := constant S_ .f32 0x7F800000#32
  let main_v10 : FVec F S1024x768 .f32 := broadcastInDim S1024x768 ![] bcast_S_S1024x768 main_cst_2
  let main_v11 : IVec S1024x768 1 := cmpf .olt main_v9 main_v10
  let main_c_3 : IVec S_ 1 := constantI S_ 1 1#1
  let main_v12 : IVec S_ 1 := (fun x v => Host.reduce IntOp.andi x v reducesTo_S1024x768_S_d0_1 h_S_) main_v11 main_c_3
  let main_v13 : IVec S_ 1 := andi main_v8 main_v12
  let main_v14 : FVec F S64x1024 .f32 := Host.absf main_arg3
  let main_cst_4 : FVec F S_ .f32 := constant S_ .f32 0x7F800000#32
  let main_v15 : FVec F S64x1024 .f32 := broadcastInDim S64x1024 ![] bcast_S_S64x1024 main_cst_4
  let main_v16 : IVec S64x1024 1 := cmpf .olt main_v14 main_v15
  fn_part1 (F := F) main_arg4 main_arg5 main_arg6 main_arg7 main_arg8 main_arg9 main_arg10 main_v13 main_v16
-- ==== Kernel.lean ====
abbrev S16x2048x768 : Shape := ⟨3, ![16, 2048, 768]⟩
abbrev S16x2048x1024 : Shape := ⟨3, ![16, 2048, 1024]⟩
abbrev S1024x768 : Shape := ⟨2, ![1024, 768]⟩
abbrev S64x1024 : Shape := ⟨2, ![64, 1024]⟩
abbrev S64 : Shape := ⟨1, ![64]⟩
abbrev S64x64 : Shape := ⟨2, ![64, 64]⟩
abbrev S1024x64 : Shape := ⟨2, ![1024, 64]⟩
abbrev S32768x768 : Shape := ⟨2, ![32768, 768]⟩
abbrev S32768x1024 : Shape := ⟨2, ![32768, 1024]⟩
abbrev S768x1024 : Shape := ⟨2, ![768, 1024]⟩
abbrev S1x64 : Shape := ⟨2, ![1, 64]⟩
abbrev S512x768 : Shape := ⟨2, ![512, 768]⟩
abbrev S512x1024 : Shape := ⟨2, ![512, 1024]⟩
abbrev S512x64 : Shape := ⟨2, ![512, 64]⟩
abbrev S512 : Shape := ⟨1, ![512]⟩
abbrev S512x1 : Shape := ⟨2, ![512, 1]⟩

abbrev nBuf : Space → Nat
  | .hbm => 29
  | .vmem => 15
  | .smem => 0
  | _ => 0

abbrev bufTy : (tb : Table) → Fin (tcTables nBuf tb) → BufTy
  | .hbm, ⟨0, _⟩ => ⟨S16x2048x768, .f32⟩
  | .hbm, ⟨1, _⟩ => ⟨S16x2048x1024, .f32⟩
  | .hbm, ⟨2, _⟩ => ⟨S1024x768, .f32⟩
  | .hbm, ⟨3, _⟩ => ⟨S64x1024, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S1024x64, .f32⟩
  | .hbm, ⟨11, _⟩ => ⟨S32768x768, .f32⟩
  | .hbm, ⟨12, _⟩ => ⟨S32768x1024, .f32⟩
  | .hbm, ⟨13, _⟩ => ⟨S768x1024, .f32⟩
  | .hbm, ⟨14, _⟩ => ⟨S768x1024, .bf16⟩
  | .hbm, ⟨15, _⟩ => ⟨S1024x64, .f32⟩
  | .hbm, ⟨16, _⟩ => ⟨S1024x64, .bf16⟩
  | .hbm, ⟨17, _⟩ => ⟨S64x64, .f32⟩
  | .hbm, ⟨18, _⟩ => ⟨S64x64, .bf16⟩
  | .hbm, ⟨19, _⟩ => ⟨S64x64, .f32⟩
  | .hbm, ⟨20, _⟩ => ⟨S64x64, .bf16⟩
  | .hbm, ⟨21, _⟩ => ⟨S64x1024, .f32⟩
  | .hbm, ⟨22, _⟩ => ⟨S64x1024, .bf16⟩
  | .hbm, ⟨23, _⟩ => ⟨S1x64, .f32⟩
  | .hbm, ⟨24, _⟩ => ⟨S1x64, .f32⟩
  | .hbm, ⟨25, _⟩ => ⟨S1x64, .f32⟩
  | .hbm, ⟨26, _⟩ => ⟨S1x64, .f32⟩
  | .hbm, ⟨27, _⟩ => ⟨S32768x1024, .f32⟩
  | .hbm, ⟨28, _⟩ => ⟨S16x2048x1024, .f32⟩
  | .local _ .vmem, ⟨0, _⟩ => ⟨S512x768, .f32⟩
  | .local _ .vmem, ⟨1, _⟩ => ⟨S512x768, .f32⟩
  | .local _ .vmem, ⟨2, _⟩ => ⟨S512x1024, .f32⟩
  | .local _ .vmem, ⟨3, _⟩ => ⟨S512x1024, .f32⟩
  | .local _ .vmem, ⟨4, _⟩ => ⟨S768x1024, .bf16⟩
  | .local _ .vmem, ⟨5, _⟩ => ⟨S1024x64, .bf16⟩
  | .local _ .vmem, ⟨6, _⟩ => ⟨S1x64, .f32⟩
  | .local _ .vmem, ⟨7, _⟩ => ⟨S1x64, .f32⟩
  | .local _ .vmem, ⟨8, _⟩ => ⟨S64x64, .bf16⟩
  | .local _ .vmem, ⟨9, _⟩ => ⟨S1x64, .f32⟩
  | .local _ .vmem, ⟨10, _⟩ => ⟨S64x64, .bf16⟩
  | .local _ .vmem, ⟨11, _⟩ => ⟨S1x64, .f32⟩
  | .local _ .vmem, ⟨12, _⟩ => ⟨S64x1024, .bf16⟩
  | .local _ .vmem, ⟨13, _⟩ => ⟨S512x1024, .f32⟩
  | .local _ .vmem, ⟨14, _⟩ => ⟨S512x1024, .f32⟩
  | _, _ => ⟨S16x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S16x2048x768_S32768x768 : S16x2048x768.ShapeCasts S32768x768
  shapeCasts_S16x2048x1024_S32768x1024 : S16x2048x1024.ShapeCasts S32768x1024
  transposes_S1024x768_S768x1024_1_0 : S1024x768.Transposes [1, 0] S768x1024
  bitsLt_bf16_f32 : FTy.bits .bf16 < FTy.bits .f32
  transposes_S64x1024_S1024x64_1_0 : S64x1024.Transposes [1, 0] S1024x64
  transposes_S64x64_S64x64_1_0 : S64x64.Transposes [1, 0] S64x64
  transposes_S1024x64_S64x1024_1_0 : S1024x64.Transposes [1, 0] S64x1024
  shapeCasts_S64_S1x64 : S64.ShapeCasts S1x64
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S768x1024_S768x1024_0_0 : ∀ a, (![0, 0] : Fin 2 → Nat) a + S768x1024.size a ≤ S768x1024.size a
  h_S768x1024 : 0 < S768x1024.numel
  shapeCasts_S768x1024_S768x1024 : S768x1024.ShapeCasts S768x1024
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  reduces_S512x64_S512 : S512x64.Reduces [1] S512
  shapeCasts_S512_S512x1 : S512.ShapeCasts S512x1
  broadcasts_S512x1_S512x64 : S512x1.Broadcasts S512x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S32768x1024_S16x2048x1024 : S32768x1024.ShapeCasts S16x2048x1024
  dot_S512x768_S768x1024_S512x1024_1_0_0_1_n_n_wf : DotDims.WF S512x768 S768x1024 S512x1024 [1] [0] [0] [1] [] []
  dot_S512x1024_S1024x64_S512x64_1_0_0_1_n_n_wf : DotDims.WF S512x1024 S1024x64 S512x64 [1] [0] [0] [1] [] []
  dot_S512x64_S64x64_S512x64_1_0_0_1_n_n_wf : DotDims.WF S512x64 S64x64 S512x64 [1] [0] [0] [1] [] []
  dot_S512x64_S64x1024_S512x1024_1_0_0_1_n_n_wf : DotDims.WF S512x64 S64x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S32768x768.size a
  hwx0_0 : ∀ i : grid0.Coords, EltTy.bits .f32 = 32 ∨ (Rect.block (s := S32768x768) S512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S32768x1024.size a
  hwx0_1 : ∀ i : grid0.Coords, EltTy.bits .f32 = 32 ∨ (Rect.block (s := S32768x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x1024.size a ≤ S768x1024.size a
  hwx0_2 : ∀ i : grid0.Coords, EltTy.bits .bf16 = 32 ∨ (Rect.block (s := S768x1024) S768x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S1024x64.size a
  hwx0_3 : ∀ i : grid0.Coords, EltTy.bits .bf16 = 32 ∨ (Rect.block (s := S1024x64) S1024x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .bf16 = 32 ∨ (Rect.block (s := S64x64) S64x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .bf16 = 32 ∨ (Rect.block (s := S64x64) S64x64.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x1024.size a ≤ S64x1024.size a
  hwx0_10 : ∀ i : grid0.Coords, EltTy.bits .bf16 = 32 ∨ (Rect.block (s := S64x1024) S64x1024.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x1024.size a ≤ S32768x1024.size a
  hwx0_11 : ∀ i : grid0.Coords, EltTy.bits .f32 = 32 ∨ (Rect.block (s := S32768x1024) S512x1024.size (cc0_transform_11 i) (hinb0_11 i)).WholeWords (EltTy.packing .f32)

variable [Facts₀]

def dot_S512x768_S768x1024_S512x1024_1_0_0_1_n_n : DotDims S512x768 S768x1024 S512x1024 where
  lhsContracting := [1]
  rhsContracting := [0]
  lhsNonContracting := [0]
  rhsNonContracting := [1]
  lhsBatch := []
  rhsBatch := []
  wf := dot_S512x768_S768x1024_S512x1024_1_0_0_1_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf

abbrev win0_0 : Pipeline.Window sig grid0 :=
  Pipeline.Window.ofSpec (Memref.whole main_v0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S768x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v15) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S64x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v16) S512x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S16x2048x768 : Shape := ⟨3, ![16, 2048, 768]⟩
abbrev S16x2048x1024 : Shape := ⟨3, ![16, 2048, 1024]⟩
abbrev S1024x768 : Shape := ⟨2, ![1024, 768]⟩
abbrev S64x1024 : Shape := ⟨2, ![64, 1024]⟩
abbrev S64 : Shape := ⟨1, ![64]⟩
abbrev S64x64 : Shape := ⟨2, ![64, 64]⟩
abbrev S1024x64 : Shape := ⟨2, ![1024, 64]⟩
abbrev S16x2048x64 : Shape := ⟨3, ![16, 2048, 64]⟩
abbrev S_ : Shape := ⟨0, ![]⟩
abbrev S16x2048 : Shape := ⟨2, ![16, 2048]⟩
abbrev S16x2048x1 : Shape := ⟨3, ![16, 2048, 1]⟩
abbrev S1x1x64 : Shape := ⟨3, ![1, 1, 64]⟩

abbrev nBuf : Space → Nat
  | .hbm => 62
  | .vmem => 0
  | .smem => 0
  | _ => 0

abbrev bufTy : (tb : Table) → Fin (tcTables nBuf tb) → BufTy
  | .hbm, ⟨0, _⟩ => ⟨S16x2048x768, .f32⟩
  | .hbm, ⟨1, _⟩ => ⟨S16x2048x1024, .f32⟩
  | .hbm, ⟨2, _⟩ => ⟨S1024x768, .f32⟩
  | .hbm, ⟨3, _⟩ => ⟨S64x1024, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S1024x64, .f32⟩
  | .hbm, ⟨11, _⟩ => ⟨S16x2048x1024, .f32⟩
  | .hbm, ⟨12, _⟩ => ⟨S16x2048x64, .f32⟩
  | .hbm, ⟨13, _⟩ => ⟨S_, .f32⟩
  | .hbm, ⟨14, _⟩ => ⟨S16x2048, .f32⟩
  | .hbm, ⟨15, _⟩ => ⟨S16x2048x1, .f32⟩
  | .hbm, ⟨16, _⟩ => ⟨S_, .f32⟩
  | .hbm, ⟨17, _⟩ => ⟨S16x2048x1, .f32⟩
  | .hbm, ⟨18, _⟩ => ⟨S16x2048x1, .f32⟩
  | .hbm, ⟨19, _⟩ => ⟨S16x2048x64, .f32⟩
  | .hbm, ⟨20, _⟩ => ⟨S16x2048x64, .f32⟩
  | .hbm, ⟨21, _⟩ => ⟨S16x2048x64, .f32⟩
  | .hbm, ⟨22, _⟩ => ⟨S_, .f32⟩
  | .hbm, ⟨23, _⟩ => ⟨S16x2048, .f32⟩
  | .hbm, ⟨24, _⟩ => ⟨S16x2048x1, .f32⟩
  | .hbm, ⟨25, _⟩ => ⟨S_, .f32⟩
  | .hbm, ⟨26, _⟩ => ⟨S16x2048x1, .f32⟩
  | .hbm, ⟨27, _⟩ => ⟨S16x2048x1, .f32⟩
  | .hbm, ⟨28, _⟩ => ⟨S16x2048x64, .f32⟩
  | .hbm, ⟨29, _⟩ => ⟨S16x2048x64, .f32⟩
  | .hbm, ⟨30, _⟩ => ⟨S_, .f32⟩
  | .hbm, ⟨31, _⟩ => ⟨S16x2048x1, .f32⟩
  | .hbm, ⟨32, _⟩ => ⟨S16x2048x1, .f32⟩
  | .hbm, ⟨33, _⟩ => ⟨S16x2048x1, .f32⟩
  | .hbm, ⟨34, _⟩ => ⟨S16x2048x64, .f32⟩
  | .hbm, ⟨35, _⟩ => ⟨S16x2048x64, .f32⟩
  | .hbm, ⟨36, _⟩ => ⟨S1x1x64, .f32⟩
  | .hbm, ⟨37, _⟩ => ⟨S16x2048x64, .f32⟩
  | .hbm, ⟨38, _⟩ => ⟨S16x2048x64, .f32⟩
  | .hbm, ⟨39, _⟩ => ⟨S1x1x64, .f32⟩
  | .hbm, ⟨40, _⟩ => ⟨S16x2048x64, .f32⟩
  | .hbm, ⟨41, _⟩ => ⟨S16x2048x64, .f32⟩
  | .hbm, ⟨42, _⟩ => ⟨S16x2048x64, .f32⟩
  | .hbm, ⟨43, _⟩ => ⟨S1x1x64, .f32⟩
  | .hbm, ⟨44, _⟩ => ⟨S16x2048x64, .f32⟩
  | .hbm, ⟨45, _⟩ => ⟨S16x2048x64, .f32⟩
  | .hbm, ⟨46, _⟩ => ⟨S16x2048x64, .f32⟩
  | .hbm, ⟨47, _⟩ => ⟨S16x2048x64, .f32⟩
  | .hbm, ⟨48, _⟩ => ⟨S_, .f32⟩
  | .hbm, ⟨49, _⟩ => ⟨S16x2048x64, .f32⟩
  | .hbm, ⟨50, _⟩ => ⟨S16x2048x64, .f32⟩
  | .hbm, ⟨51, _⟩ => ⟨S_, .f32⟩
  | .hbm, ⟨52, _⟩ => ⟨S16x2048x64, .f32⟩
  | .hbm, ⟨53, _⟩ => ⟨S16x2048x64, .f32⟩
  | .hbm, ⟨54, _⟩ => ⟨S16x2048x64, .f32⟩
  | .hbm, ⟨55, _⟩ => ⟨S16x2048x64, .f32⟩
  | .hbm, ⟨56, _⟩ => ⟨S1x1x64, .f32⟩
  | .hbm, ⟨57, _⟩ => ⟨S16x2048x64, .f32⟩
  | .hbm, ⟨58, _⟩ => ⟨S16x2048x64, .f32⟩
  | .hbm, ⟨59, _⟩ => ⟨S16x2048x64, .f32⟩
  | .hbm, ⟨60, _⟩ => ⟨S16x2048x1024, .f32⟩
  | .hbm, ⟨61, _⟩ => ⟨S16x2048x1024, .f32⟩
  | _, _ => ⟨S16x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]

class Facts₀ : Prop where
  reducesTo_S16x2048x64_S16x2048_d2 : S16x2048x64.ReducesTo [2] S16x2048
  h_S_ : 0 < S_.numel
  bcast_S16x2048_S16x2048x1_0_1 : S16x2048.BroadcastsInDim S16x2048x1 (![0, 1] : Fin 2 → Fin S16x2048x1.rank)
  bcast_S_S16x2048x1 : S_.BroadcastsInDim S16x2048x1 (![] : Fin 0 → Fin S16x2048x1.rank)
  bcast_S16x2048x1_S16x2048x64_0_1_2 : S16x2048x1.BroadcastsInDim S16x2048x64 (![0, 1, 2] : Fin 3 → Fin S16x2048x64.rank)
  bcast_S64_S1x1x64_2 : S64.BroadcastsInDim S1x1x64 (![2] : Fin 1 → Fin S1x1x64.rank)
  bcast_S1x1x64_S16x2048x64_0_1_2 : S1x1x64.BroadcastsInDim S16x2048x64 (![0, 1, 2] : Fin 3 → Fin S16x2048x64.rank)
  bcast_S_S16x2048x64 : S_.BroadcastsInDim S16x2048x64 (![] : Fin 0 → Fin S16x2048x64.rank)
  dot_S16x2048x768_S1024x768_S16x2048x1024_2_1_01_0_n_n_wf : DotDims.WF S16x2048x768 S1024x768 S16x2048x1024 [2] [1] [0, 1] [0] [] []
  dot_S16x2048x1024_S64x1024_S16x2048x64_2_1_01_0_n_n_wf : DotDims.WF S16x2048x1024 S64x1024 S16x2048x64 [2] [1] [0, 1] [0] [] []
  dot_S16x2048x64_S64x64_S16x2048x64_2_1_01_0_n_n_wf : DotDims.WF S16x2048x64 S64x64 S16x2048x64 [2] [1] [0, 1] [0] [] []
  dot_S16x2048x64_S1024x64_S16x2048x1024_2_1_01_0_n_n_wf : DotDims.WF S16x2048x64 S1024x64 S16x2048x1024 [2] [1] [0, 1] [0] [] []

variable [Facts₀]

def dot_S16x2048x768_S1024x768_S16x2048x1024_2_1_01_0_n_n : DotDims S16x2048x768 S1024x768 S16x2048x1024 where
  lhsContracting := [2]
  rhsContracting := [1]
  lhsNonContracting := [0, 1]
  rhsNonContracting := [0]
  lhsBatch := []
  rhsBatch := []
  wf := dot_S16x2048x768_S1024x768_S16x2048x1024_2_1_01_0_n_n_wf
def dot_S16x2048x1024_S64x1024_S16x2048x64_2_1_01_0_n_n : DotDims S16x2048x1024 S64x1024 S16x2048x64 where
  lhsContracting := [2]
  rhsContracting := [1]
  lhsNonContracting := [0, 1]
  rhsNonContracting := [0]
  lhsBatch := []
  rhsBatch := []
  wf := dot_S16x2048x1024_S64x1024_S16x2048x64_2_1_01_0_n_n_wf
def dot_S16x2048x64_S64x64_S16x2048x64_2_1_01_0_n_n : DotDims S16x2048x64 S64x64 S16x2048x64 where
  lhsContracting := [2]
  rhsContracting := [1]
  lhsNonContracting := [0, 1]
  rhsNonContracting := [0]
  lhsBatch := []
  rhsBatch := []
  wf := dot_S16x2048x64_S64x64_S16x2048x64_2_1_01_0_n_n_wf
def dot_S16x2048x64_S1024x64_S16x2048x1024_2_1_01_0_n_n : DotDims S16x2048x64 S1024x64 S16x2048x1024 where
  lhsContracting := [2]
  rhsContracting := [1]
  lhsNonContracting := [0, 1]
  rhsNonContracting := [0]
  lhsBatch := []
  rhsBatch := []
  wf := dot_S16x2048x64_S1024x64_S16x2048x1024_2_1_01_0_n_n_wf

class Facts : Prop extends Facts₀ where

variable [Facts]
-- ==== Proof.Adapter.lean ====
/-
  One row of a bottleneck adapter over the extended reals, and the adapter row by row over a matrix of any number of
  rows.

  A row `x` of 768 features is projected to 1024 coordinates (`projected`), then lowered to 64 (`lowered`), both
  without bias; the 64 coordinates are normalised by their mean and variance over the row, scaled and shifted
  (`normed`: `(v - μ) · rsqrt (σ² + ε) · γ + β`, the mean and variance as sums divided by the literal 64); two linear
  maps with bias read the normalised row (`pre1`, `pre2`), the first passes through `t ↦ t · logistic t` and multiplies
  the second (`gated`); the product is raised back to 1024 coordinates and added to the row `res` of the residual
  (`row`). Every weight matrix is indexed (output coordinate, input coordinate).

  Each row of the result depends on the same row of the two inputs only, so the adapter over `n` rows restricted to a
  band of rows is the adapter over that band (`rows`, stated for every `n`).
-/
import Idealize.ShloMosaic.PureOps.Ideal
import Idealize.ShloMosaic.PureOps.IdealRules
import Idealize.ShloMosaic.Lib.ValueIdx

noncomputable section

namespace Cert.Adapter

open Idealize.ShloMosaic Idealize.ShloMosaic.ValueIdx

/-- The adapter's weights, each matrix indexed (output coordinate, input coordinate). -/
@[ext] structure Weights where
  proj : Fin 1024 → Fin 768 → EReal
  down : Fin 64 → Fin 1024 → EReal
  gamma : Fin 64 → EReal
  beta : Fin 64 → EReal
  l1 : Fin 64 → Fin 64 → EReal
  b1 : Fin 64 → EReal
  l2 : Fin 64 → Fin 64 → EReal
  b2 : Fin 64 → EReal
  up : Fin 1024 → Fin 64 → EReal

/-- The divisor of the mean and of the variance: the float literal 64. -/
abbrev width : EReal := Ideal.ofBits .f32 0x42800000#32
/-- The literal added to the variance (the float nearest 1e-5; the same word in both programs, never evaluated). -/
abbrev eps : EReal := Ideal.ofBits .f32 0x3727C5AC#32

/-- The float word of 1 denotes 1. -/
theorem ofBits_one : Ideal.ofBits .f32 0x3F800000#32 = 1 := IdealRules.sign_bit.ideal_onePat .f32

variable (w : Weights)

/-- The row projected to 1024 coordinates. -/
def projected (x : Fin 768 → EReal) (q : Fin 1024) : EReal := ∑ c : Fin 768, x c * w.proj q c
/-- The projected row lowered to 64 coordinates. -/
def lowered (x : Fin 768 → EReal) (d : Fin 64) : EReal := ∑ q : Fin 1024, projected w x q * w.down d q
/-- The mean of 64 coordinates. -/
def mean (v : Fin 64 → EReal) : EReal := Ideal.div (∑ d : Fin 64, v d) width
/-- Their variance about the mean. -/
def variance (v : Fin 64 → EReal) : EReal := Ideal.div (∑ d : Fin 64, (v d - mean v) * (v d - mean v)) width
/-- The coordinates normalised, scaled by `γ` and shifted by `β`. -/
def normed (v : Fin 64 → EReal) (d : Fin 64) : EReal :=
  (v d - mean v) * Ideal.rsqrt (variance v + eps) * w.gamma d + w.beta d
/-- The first linear map of the gate, with its bias. -/
def pre1 (n : Fin 64 → EReal) (e : Fin 64) : EReal := (∑ d : Fin 64, n d * w.l1 e d) + w.b1 e
/-- The second linear map of the gate, with its bias. -/
def pre2 (n : Fin 64 → EReal) (e : Fin 64) : EReal := (∑ d : Fin 64, n d * w.l2 e d) + w.b2 e
/-- The gated activation: `t · logistic t` of the first map times the second. -/
def gated (n : Fin 64 → EReal) (e : Fin 64) : EReal := pre1 w n e * Ideal.logistic (pre1 w n e) * pre2 w n e
/-- One row of the adapter: the residual's row plus the gated activation raised to 1024 coordinates. -/
def row (x : Fin 768 → EReal) (res : Fin 1024 → EReal) (q : Fin 1024) : EReal :=
  res q + ∑ d : Fin 64, gated w (normed w (lowered w x)) d * w.up q d

/-- Entry `(r, q)` of the adapter over `n` rows: row `r` of the two inputs through `row`. -/
def rowAt {n : ℕ} (X : (⟨2, ![n, 768]⟩ : Shape).Idx → EReal) (R : (⟨2, ![n, 1024]⟩ : Shape).Idx → EReal)
    (r : Fin n) (q : Fin 1024) : EReal :=
  row w (fun c => X (ix2 r c)) (fun k => R (ix2 r k)) q

/-- The adapter over a matrix of `n` rows. -/
def rows {n : ℕ} (X : (⟨2, ![n, 768]⟩ : Shape).Idx → EReal) (R : (⟨2, ![n, 1024]⟩ : Shape).Idx → EReal) :
    (⟨2, ![n, 1024]⟩ : Shape).Idx → EReal :=
  fun j => rowAt w X R (j 0) (j 1)

theorem rows_ix2 {n : ℕ} (X : (⟨2, ![n, 768]⟩ : Shape).Idx → EReal) (R : (⟨2, ![n, 1024]⟩ : Shape).Idx → EReal)
    (r : Fin n) (q : Fin 1024) : rows w X R (ix2 r q) = rowAt w X R r q := rfl

/-- Rows are independent: the adapter over `n` rows at an entry of row `r` and the adapter over `n'` rows at an entry
    of row `r'` agree when the weights agree, row `r` of the first inputs is row `r'` of the second, and the entries
    have the same coordinate. -/
theorem rows_band {n n' : ℕ} (w' : Weights) (X : (⟨2, ![n, 768]⟩ : Shape).Idx → EReal)
    (R : (⟨2, ![n, 1024]⟩ : Shape).Idx → EReal) (X' : (⟨2, ![n', 768]⟩ : Shape).Idx → EReal)
    (R' : (⟨2, ![n', 1024]⟩ : Shape).Idx → EReal) (j : (⟨2, ![n, 1024]⟩ : Shape).Idx)
    (j' : (⟨2, ![n', 1024]⟩ : Shape).Idx) (hw : w = w')
    (hX : ∀ c : Fin 768, X (ix2 (j 0) c) = X' (ix2 (j' 0) c))
    (hR : ∀ k : Fin 1024, R (ix2 (j 0) k) = R' (ix2 (j' 0) k)) (hq : (j 1 : Fin 1024) = j' 1) :
    rows w X R j = rows w' X' R' j' := by
  subst hw
  show row w (fun c => X (ix2 (j 0) c)) (fun k => R (ix2 (j 0) k)) (j 1)
    = row w (fun c => X' (ix2 (j' 0) c)) (fun k => R' (ix2 (j' 0) k)) (j' 1)
  rw [funext hX, funext hR, hq]

/-! ## The adapter over the programs' arrays -/

/-- The weights as the argument arrays give them: each matrix indexed (output coordinate, input coordinate), each
    vector by its coordinate. -/
def argWeights (a2 : (⟨2, ![1024, 768]⟩ : Shape).Idx → EReal) (a3 : (⟨2, ![64, 1024]⟩ : Shape).Idx → EReal)
    (a4 a5 : (⟨1, ![64]⟩ : Shape).Idx → EReal) (a6 : (⟨2, ![64, 64]⟩ : Shape).Idx → EReal)
    (a7 : (⟨1, ![64]⟩ : Shape).Idx → EReal) (a8 : (⟨2, ![64, 64]⟩ : Shape).Idx → EReal)
    (a9 : (⟨1, ![64]⟩ : Shape).Idx → EReal) (a10 : (⟨2, ![1024, 64]⟩ : Shape).Idx → EReal) : Weights where
  proj q c := a2 (ix2 q c)
  down d q := a3 (ix2 d q)
  gamma d := a4 (ix1 d)
  beta d := a5 (ix1 d)
  l1 e d := a6 (ix2 e d)
  b1 e := a7 (ix1 e)
  l2 e d := a8 (ix2 e d)
  b2 e := a9 (ix1 e)
  up q d := a10 (ix2 q d)

/-- Entry `(b, s, q)` of the adapter over a batch of 16 sequences of 2048 rows: row `(b, s)` of the two inputs through
    `row`. -/
def entry (X : (⟨3, ![16, 2048, 768]⟩ : Shape).Idx → EReal) (R : (⟨3, ![16, 2048, 1024]⟩ : Shape).Idx → EReal)
    (b : Fin 16) (s : Fin 2048) (q : Fin 1024) : EReal :=
  row w (fun c => X (ix3 b s c)) (fun k => R (ix3 b s k)) q

/-- The adapter over the batch. -/
def result (X : (⟨3, ![16, 2048, 768]⟩ : Shape).Idx → EReal) (R : (⟨3, ![16, 2048, 1024]⟩ : Shape).Idx → EReal) :
    (⟨3, ![16, 2048, 1024]⟩ : Shape).Idx → EReal :=
  fun i => entry w X R (i 0) (i 1) (i 2)

/-! ## An array read at an index is a function of the index's coordinates -/

variable {α : Type}

/-- A vector read at coordinate `a`. -/
def at1 {n0 : ℕ} (x : (⟨1, ![n0]⟩ : Shape).Idx → α) (a : Fin n0) : α := x (ix1 a)
/-- A matrix read at `(a, b)`. -/
def at2 {n0 n1 : ℕ} (x : (⟨2, ![n0, n1]⟩ : Shape).Idx → α) (a : Fin n0) (b : Fin n1) : α := x (ix2 a b)
/-- A three-axis array read at `(a, b, c)`. -/
def at3 {n0 n1 n2 : ℕ} (x : (⟨3, ![n0, n1, n2]⟩ : Shape).Idx → α) (a : Fin n0) (b : Fin n1) (c : Fin n2) : α :=
  x (ix3 a b c)

theorem at1_eq {n0 : ℕ} (x : (⟨1, ![n0]⟩ : Shape).Idx → α) (j : (⟨1, ![n0]⟩ : Shape).Idx) : x j = at1 x (j 0) :=
  congrArg x (eq_ix1 j)
theorem at2_eq {n0 n1 : ℕ} (x : (⟨2, ![n0, n1]⟩ : Shape).Idx → α) (j : (⟨2, ![n0, n1]⟩ : Shape).Idx) :
    x j = at2 x (j 0) (j 1) :=
  congrArg x (eq_ix2 j)
theorem at3_eq {n0 n1 n2 : ℕ} (x : (⟨3, ![n0, n1, n2]⟩ : Shape).Idx → α) (j : (⟨3, ![n0, n1, n2]⟩ : Shape).Idx) :
    x j = at3 x (j 0) (j 1) (j 2) :=
  congrArg x (eq_ix3 j)

end Cert.Adapter

end
-- ==== Proof.LibRowOps.lean ====
/-
  Row-wise operations of a two-axis vector, read at an index (program-independent; imports only the library).

  A reduction along the rows of an `[a, b]` vector that keeps the reduced axis as a unit axis passes through three
  operations: the reduction itself into `[a]`, a shape cast of that into the column `[a, 1]`, and a broadcast of the
  column back to `[a, b]`. Read at `(i, j)`, the cast column at `(i, 0)` is entry `i` of the reduced vector, and the
  broadcast column at `(i, j)` is the column's entry `(i, 0)`: the value depends on the row alone. At the ideal values
  the reduction at row `i` is the sum over `k` of the entries `(i, k)`, or the fold of `max` over them from the
  accumulator's value, in any order.
-/
import Idealize.ShloMosaic.Lib.ValueIdx
import Idealize.ShloMosaic.Lib.Pipeline.Value
import Idealize.ShloMosaic.PureOps.Ideal.Laws

noncomputable section

namespace Cert.RowOps

open Idealize.ShloMosaic Idealize.ShloMosaic.ValueIdx

variable {α : Type}

/-- An `[a]` vector cast to the column `[a, 1]` reads, at `(i, z)`, the operand's entry `i`: both sit at row-major
    position `i`. -/
theorem shapeCast_a_a1_apply {a : ℕ} (x : (⟨1, ![a]⟩ : Shape).Idx → α)
    (h : (⟨1, ![a]⟩ : Shape).ShapeCasts ⟨2, ![a, 1]⟩) (i : Fin a) (z : Fin 1) :
    shapeCast ⟨2, ![a, 1]⟩ x h (ix2 i z) = x (ix1 i) :=
  shapeCast_apply x h _ _ (by
    have hz : z.val = 0 := by omega
    rw [Shape.rowMajor_val_one, Shape.rowMajor_val_two]
    show i.val = i.val * 1 + z.val
    rw [hz, Nat.mul_one, Nat.add_zero])

/-- A column `[a, 1]` broadcast to `[a, b]` reads, at `(i, j)`, the column's entry `(i, 0)`: the row is kept and
    the unit axis is read at its only coordinate. -/
theorem broadcastTo_a1_ab_apply {a b : ℕ} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) :=
  broadcastTo_apply x h _ _ (fun c => match c with
    | ⟨0, _⟩ => by
      show i.val = if a = 1 then 0 else i.val
      by_cases ha : a = 1
      · rw [if_pos ha]; have := i.isLt; omega
      · rw [if_neg ha]
    | ⟨1, _⟩ => by
      show 0 = if (1 : Nat) = 1 then 0 else j.val
      rw [if_pos rfl])

/-- The index over row `i` with coordinate `k` put back on the reduced axis is `(i, k)`. -/
theorem lift_row {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext c; apply Fin.ext
  fin_cases c <;> rfl

/-- At the ideal values a sum along the rows of an `[a, b]` vector is, at row `i`, the sum of that row's entries. -/
theorem multiReduction_add_row {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ X acc h hφ hacc (ix1 i) = ∑ k : Fin b, X (ix2 i k) := by
  refine (Ideal.multiReduction_add_single X acc h hφ hacc (ix1 i)).trans ?_
  exact Finset.sum_congr rfl fun k _ => congrArg X (lift_row h i k)

/-- At the ideal values a maximum along the rows of an `[a, b]` vector is, at row `i`, the fold of `max` over that
    row's entries from the accumulator's value, in any order. -/
theorem multiReduction_maximumf_row {a b : ℕ} {φ : FTy} (X : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (i : Fin a) :
    multiReduction .maximumf [1] ⟨1, ![a]⟩ X acc h hφ hacc (ix1 i)
      = (Finset.univ : Finset (Fin b)).fold max (Ideal.ofBits φ acc) (fun k => X (ix2 i k)) := by
  refine (Ideal.multiReduction_maximumf_single X acc h hφ hacc (ix1 i)).trans ?_
  have hf : (X ∘ h.lift (ix1 i)) = fun k : Fin b => X (ix2 i k) := funext fun k => congrArg X (lift_row h i k)
  rw [hf]
  rfl

end Cert.RowOps

end
-- ==== Proof.LibPlainDot.lean ====
/-
  A plain matrix product read at an index (program-independent; imports only the library).

  For the dimension numbers of an ordinary product of an `[M, K]` matrix by a `[K, N]` matrix — the left operand's
  second axis contracted with the right operand's first, no batch axis — the contraction index is one coordinate
  `k : Fin K`, the left operand is read at `(r, k)` and the right one at `(k, j)`. So at the ideal values both the
  kernel's matrix product into a zero accumulator and the host's general product are, at `(r, j)`, the sum over `k` of
  the products of the entries `(r, k)` and `(k, j)`.
-/
import Idealize.ShloMosaic.Lib.ValueIdx
import Idealize.ShloMosaic.PureOps.Ideal.Laws

noncomputable section

namespace Cert.PlainDot

open Idealize.ShloMosaic Idealize.ShloMosaic.ValueIdx

/-- The contraction index of a plain product is its one coordinate. -/
abbrev contrFin (M K N : ℕ) : (DotDims.plain M K N).contr.Idx ≃ Fin K :=
  contrEquiv1 (DotDims.plain M K N) K rfl rfl

/-- At output `(r, j)` and contraction coordinate `k` the left operand is read at `(r, k)`. -/
theorem lhsIdx_plain (M K N : ℕ) (r : Fin M) (j : Fin N) (k : Fin K) :
    (DotDims.plain M K N).lhsIdx (ix2 r j) ((contrFin M K N).symm k) = ix2 r k := by
  funext a; apply Fin.ext
  match a with
  | ⟨0, _⟩ => rfl
  | ⟨1, _⟩ =>
    refine ((DotDims.plain M K N).lhsIdx_val_of_single (cl := (1 : Fin 2)) rfl (ix2 r j) _).trans ?_
    exact contrEquiv1_symm_val (DotDims.plain M K N) K rfl rfl k

/-- At output `(r, j)` and contraction coordinate `k` the right operand is read at `(k, j)`. -/
theorem rhsIdx_plain (M K N : ℕ) (r : Fin M) (j : Fin N) (k : Fin K) :
    (DotDims.plain M K N).rhsIdx (ix2 r j) ((contrFin M K N).symm k) = ix2 k j := by
  funext a; apply Fin.ext
  match a with
  | ⟨0, _⟩ =>
    refine ((DotDims.plain M K N).rhsIdx_val_of_single (cr := (0 : Fin 2)) rfl (ix2 r j) _).trans ?_
    exact contrEquiv1_symm_val (DotDims.plain M K N) K rfl rfl k
  | ⟨1, _⟩ => rfl

/-- The contraction's sum of a plain product at `(r, j)`, over the coordinate `k`. -/
theorem sum_plain {M K N : ℕ} (L : (⟨2, ![M, K]⟩ : Shape).Idx → EReal) (R : (⟨2, ![K, N]⟩ : Shape).Idx → EReal)
    (r : Fin M) (j : Fin N) :
    (∑ q : (DotDims.plain M K N).contr.Idx,
        L ((DotDims.plain M K N).lhsIdx (ix2 r j) q) * R ((DotDims.plain M K N).rhsIdx (ix2 r j) q))
      = ∑ k : Fin K, L (ix2 r k) * R (ix2 k j) := by
  rw [← Equiv.sum_comp (contrFin M K N).symm]
  exact Finset.sum_congr rfl fun k _ => by rw [lhsIdx_plain, rhsIdx_plain]

/-- At the ideal values the kernel's matrix product into the zero accumulator, read at `(r, j)`. -/
theorem matmul_plain_apply {M K N : ℕ} {φ₁ φ₂ : FTy} (prec : Option ContractPrecision)
    (lhs : FVec Ideal ⟨2, ![M, K]⟩ φ₁) (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) :=
  (Ideal.matmul_constant_zero_apply _ prec lhs rhs (ix2 r j)).trans (sum_plain lhs rhs r j)

/-- At the ideal values the host's general product, read at `(r, j)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j)
      = ∑ k : Fin K, lhs (ix2 r k) * rhs (ix2 k j) :=
  (Ideal.dotGeneral_apply _ prec sched lhs rhs (ix2 r j)).trans (sum_plain lhs rhs r j)

end Cert.PlainDot

end
-- ==== Proof.TileValue.lean ====
/-
  One tile of the kernel: what the body stores, entry by entry, is the adapter applied to the tile's rows.

  The body reads a tile of 512 rows of the features (`x0`) and of the residual (`x1`) and the whole weight arrays, each
  weight matrix stored transposed (input coordinate first) and each vector as a one-row matrix. Its two stages are read
  here at an entry `(p, d)`: the first (the two projections and the normalisation) at `(p, d)` is `normed` of row `p`
  lowered; the second (the gate, the raising and the residual) at `(p, q)` is the residual plus the sum over the 64 gated
  coordinates. Roundings to the shorter float format are the identity on the extended reals, a matrix product into the
  zero accumulator is the plain sum of products, and a sum along a row kept as a column and broadcast back is that
  row's sum at every entry of the row.
-/
import proofs.«147435_j67276367724646_1_alg».proof.Proof.Gen.KernelIdeal.Skeleton
import proofs.«147435_j67276367724646_1_alg».proof.Proof.Adapter
import proofs.«147435_j67276367724646_1_alg».proof.Proof.LibRowOps
import proofs.«147435_j67276367724646_1_alg».proof.Proof.LibPlainDot
import Idealize.ShloMosaic.Lib.ValueLayout

noncomputable section

namespace Cert.KernelIdeal.Tile

open Idealize.ShloMosaic Idealize.ShloMosaic.ValueIdx Cert.KernelIdeal Cert.KernelIdeal.Gen Cert.Adapter

/-- The weights as the kernel holds them: matrices transposed, vectors as one-row matrices. -/
def weights (x2 : (⟨2, ![768, 1024]⟩ : Shape).Idx → EReal) (x3 : (⟨2, ![1024, 64]⟩ : Shape).Idx → EReal)
    (x4 x5 : (⟨2, ![1, 64]⟩ : Shape).Idx → EReal) (x6 : (⟨2, ![64, 64]⟩ : Shape).Idx → EReal)
    (x7 : (⟨2, ![1, 64]⟩ : Shape).Idx → EReal) (x8 : (⟨2, ![64, 64]⟩ : Shape).Idx → EReal)
    (x9 : (⟨2, ![1, 64]⟩ : Shape).Idx → EReal) (x10 : (⟨2, ![64, 1024]⟩ : Shape).Idx → EReal) : Weights where
  proj q c := x2 (ix2 c q)
  down d q := x3 (ix2 q d)
  gamma d := x4 (ix2 (0 : Fin 1) d)
  beta d := x5 (ix2 (0 : Fin 1) d)
  l1 e d := x6 (ix2 d e)
  b1 e := x7 (ix2 (0 : Fin 1) e)
  l2 e d := x8 (ix2 d e)
  b2 e := x9 (ix2 (0 : Fin 1) e)
  up q d := x10 (ix2 d q)

/-- The four products of the body are plain matrix products. -/
theorem dot1_eq : dot_S512x768_S768x1024_S512x1024_1_0_0_1_n_n = DotDims.plain 512 768 1024 := rfl
theorem dot2_eq : dot_S512x1024_S1024x64_S512x64_1_0_0_1_n_n = DotDims.plain 512 1024 64 := rfl
theorem dot3_eq : dot_S512x64_S64x64_S512x64_1_0_0_1_n_n = DotDims.plain 512 64 64 := rfl
theorem dot4_eq : dot_S512x64_S64x1024_S512x1024_1_0_0_1_n_n = DotDims.plain 512 64 1024 := rfl

/-- A sum along the rows of a 512 × 64 tile, at row `p`, is the sum of that row's 64 entries. -/
theorem rowSum_apply (X : FVec Ideal S512x64 .f32) (hφ : FTy.f32 = FTy.f32 ∨ FTy.f32 = FTy.bf16)
    (hacc : (0x00000000#32 : BitVec 32) = 0x00000000#32) (p : Fin 512) :
    multiReduction .add [1] S512 X 0x00000000#32 reduces_S512x64_S512 hφ hacc (ix1 p) = ∑ k : Fin 64, X (ix2 p k) :=
  Cert.RowOps.multiReduction_add_row X _ _ hφ hacc p

/-- The first stage at `(p, d)`: row `p` of the tile projected, lowered and normalised. -/
theorem stage1_apply (x0 : Vec Ideal S512x768 .f32) (x2 : Vec Ideal S768x1024 .bf16) (x3 : Vec Ideal S1024x64 .bf16)
    (x4 x5 : Vec Ideal S1x64 .f32) (x6 : Vec Ideal S64x64 .bf16) (x7 : Vec Ideal S1x64 .f32) (x8 : Vec Ideal S64x64 .bf16)
    (x9 : Vec Ideal S1x64 .f32) (x10 : Vec Ideal S64x1024 .bf16) (p : Fin 512) (d : Fin 64) :
    k0_pay2 (F := Ideal) x0 x2 x3 x4 x5 (ix2 p d)
      = normed (weights x2 x3 x4 x5 x6 x7 x8 x9 x10) (lowered (weights x2 x3 x4 x5 x6 x7 x8 x9 x10) fun c => x0 (ix2 p c)) d := by
  unfold k0_pay2
  rw [dot1_eq, dot2_eq]
  repeat (first
    | rw [rowSum_apply]
    | simp only [truncf, addf, mulf, subf, divf, rsqrt, broadcast, shapeCast_self, Cert.RowOps.broadcastTo_a1_ab_apply,
        broadcastTo_1b_ab_apply, Cert.RowOps.shapeCast_a_a1_apply, Cert.PlainDot.matmul_plain_apply])
  rfl

/-- The second stage at `(p, q)`, for any normalised tile `N`: the residual plus the gated coordinates of row `p`
    raised to coordinate `q`. -/
theorem stage2_apply (N : FVec Ideal S512x64 .bf16) (x1 : Vec Ideal S512x1024 .f32) (x2 : Vec Ideal S768x1024 .bf16)
    (x3 : Vec Ideal S1024x64 .bf16) (x4 x5 : Vec Ideal S1x64 .f32) (x6 : Vec Ideal S64x64 .bf16) (x7 : Vec Ideal S1x64 .f32)
    (x8 : Vec Ideal S64x64 .bf16) (x9 : Vec Ideal S1x64 .f32) (x10 : Vec Ideal S64x1024 .bf16) (p : Fin 512) (q : Fin 1024) :
    k0_pay1 (F := Ideal) N (k0_pay3 x6) (constant S512x64 .f32 0x00000000#32) x7 x8 x9 x10 x1 (ix2 p q)
      = x1 (ix2 p q) + ∑ d : Fin 64, gated (weights x2 x3 x4 x5 x6 x7 x8 x9 x10) (fun k => N (ix2 p k)) d
          * (weights x2 x3 x4 x5 x6 x7 x8 x9 x10).up q d := by
  unfold k0_pay1 k0_pay3
  rw [dot3_eq, dot4_eq]
  simp only [truncf, addf, mulf, logistic, shapeCast_self, broadcastTo_1b_ab_apply, Cert.PlainDot.matmul_plain_apply]
  rfl

/-- A whole tile: the stored block is the adapter over the tile's 512 rows. -/
theorem tile_eq (x0 : Vec Ideal S512x768 .f32) (x1 : Vec Ideal S512x1024 .f32) (x2 : Vec Ideal S768x1024 .bf16)
    (x3 : Vec Ideal S1024x64 .bf16) (x4 x5 : Vec Ideal S1x64 .f32) (x6 : Vec Ideal S64x64 .bf16) (x7 : Vec Ideal S1x64 .f32)
    (x8 : Vec Ideal S64x64 .bf16) (x9 : Vec Ideal S1x64 .f32) (x10 : Vec Ideal S64x1024 .bf16) :
    k0_pay1 (F := Ideal) (k0_pay2 x0 x2 x3 x4 x5) (k0_pay3 x6) (constant S512x64 .f32 0x00000000#32) x7 x8 x9 x10 x1
      = rows (n := 512) (weights x2 x3 x4 x5 x6 x7 x8 x9 x10) x0 x1 := by
  funext j
  obtain ⟨p, q, rfl⟩ : ∃ (p : Fin 512) (q : Fin 1024), j = ix2 p q := ⟨j 0, j 1, eq_ix2 j⟩
  rw [stage2_apply (k0_pay2 x0 x2 x3 x4 x5) x1 x2 x3 x4 x5 x6 x7 x8 x9 x10 p q]
  simp only [stage1_apply x0 x2 x3 x4 x5 x6 x7 x8 x9 x10]
  rfl

end Cert.KernelIdeal.Tile

end
-- ==== Proof.Blocks.lean ====
/-
  From the tiles to the array: after the region the kernel's result array holds the adapter over all 32768 rows.

  The grid has 64 points. At point `t` the windows of the features and of the residual stage rows `512 t … 512 t + 511`
  of their arrays, the nine weight windows stage their whole arrays, and the output window writes back rows
  `512 t … 512 t + 511`. Since each row of the adapter depends on the same row of the inputs only, what point `t` writes
  back is the band of rows `512 t … 512 t + 511` of the adapter over the whole arrays; the 64 bands cover the array.
-/
import proofs.«147435_j67276367724646_1_alg».proof.Proof.Gen.KernelIdeal.Frame
import proofs.«147435_j67276367724646_1_alg».proof.Proof.TileValue
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The weights as the region finds them: the transposed matrices and the one-row vectors the host prepared. -/
abbrev entryWeights (c : Dev nD) : Adapter.Weights :=
  Tile.weights (V m c main_v3) (V m c main_v5) (V m c main_v12) (V m c main_v13) (V m c main_v7) (V m c main_v14)
    (V m c main_v9) (V m c main_v15) (V m c main_v11)

/-- The adapter over the 32768 rows of the two input matrices as the region finds them. -/
abbrev G (c : Dev nD) : S32768x1024.Idx → EReal :=
  Adapter.rows (n := 32768) (entryWeights m c) (V m c main_v0) (V m c main_v1)

/-- The row windows move with the grid point and the column index stays 0 (decided over the 64 points). -/
theorem idx_rows : ∀ t : Fin cfg0.N, win0_11.index t (0 : Fin 2) = t.val ∧ win0_11.index t (1 : Fin 2) = 0
    ∧ win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The weight windows stay at block (0, 0) (decided over the 64 points). -/
theorem idx_whole : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-- Window 2 stages its whole array at every point. -/
theorem whole2 (c : Dev nD) (t : Fin cfg0.N) : (iblk m c 2 t : S768x1024.Idx → EReal) = V m c main_v3 := by
  have e := idx_whole t
  funext y
  show V m c main_v3 (((cfg0.win 2).blk t).view.emb y) = V m c main_v3 y
  have h : ((cfg0.win 2).blk t).view.emb y = y := by
    funext a; apply Fin.ext
    match a with
    | ⟨0, _⟩ => show win0_2.index t (0 : Fin 2) * 768 + 1 * (y 0).val = (y 0).val; omega
    | ⟨1, _⟩ => show win0_2.index t (1 : Fin 2) * 1024 + 1 * (y 1).val = (y 1).val; omega
  rw [h]

/-- Window 3 stages its whole array at every point. -/
theorem whole3 (c : Dev nD) (t : Fin cfg0.N) : (iblk m c 3 t : S1024x64.Idx → EReal) = V m c main_v5 := by
  have e := idx_whole t
  funext y
  show V m c main_v5 (((cfg0.win 3).blk t).view.emb y) = V m c main_v5 y
  have h : ((cfg0.win 3).blk t).view.emb y = y := by
    funext a; apply Fin.ext
    match a with
    | ⟨0, _⟩ => show win0_3.index t (0 : Fin 2) * 1024 + 1 * (y 0).val = (y 0).val; omega
    | ⟨1, _⟩ => show win0_3.index t (1 : Fin 2) * 64 + 1 * (y 1).val = (y 1).val; omega
  rw [h]

/-- Window 4 stages its whole array at every point. -/
theorem whole4 (c : Dev nD) (t : Fin cfg0.N) : (iblk m c 4 t : S1x64.Idx → EReal) = V m c main_v12 := by
  have e := idx_whole t
  funext y
  show V m c main_v12 (((cfg0.win 4).blk t).view.emb y) = V m c main_v12 y
  have h : ((cfg0.win 4).blk t).view.emb y = y := by
    funext a; apply Fin.ext
    match a with
    | ⟨0, _⟩ => show win0_4.index t (0 : Fin 2) * 1 + 1 * (y 0).val = (y 0).val; omega
    | ⟨1, _⟩ => show win0_4.index t (1 : Fin 2) * 64 + 1 * (y 1).val = (y 1).val; omega
  rw [h]

/-- Window 5 stages its whole array at every point. -/
theorem whole5 (c : Dev nD) (t : Fin cfg0.N) : (iblk m c 5 t : S1x64.Idx → EReal) = V m c main_v13 := by
  have e := idx_whole t
  funext y
  show V m c main_v13 (((cfg0.win 5).blk t).view.emb y) = V m c main_v13 y
  have h : ((cfg0.win 5).blk t).view.emb y = y := by
    funext a; apply Fin.ext
    match a with
    | ⟨0, _⟩ => show win0_5.index t (0 : Fin 2) * 1 + 1 * (y 0).val = (y 0).val; omega
    | ⟨1, _⟩ => show win0_5.index t (1 : Fin 2) * 64 + 1 * (y 1).val = (y 1).val; omega
  rw [h]

/-- Window 6 stages its whole array at every point. -/
theorem whole6 (c : Dev nD) (t : Fin cfg0.N) : (iblk m c 6 t : S64x64.Idx → EReal) = V m c main_v7 := by
  have e := idx_whole t
  funext y
  show V m c main_v7 (((cfg0.win 6).blk t).view.emb y) = V m c main_v7 y
  have h : ((cfg0.win 6).blk t).view.emb y = y := by
    funext a; apply Fin.ext
    match a with
    | ⟨0, _⟩ => show win0_6.index t (0 : Fin 2) * 64 + 1 * (y 0).val = (y 0).val; omega
    | ⟨1, _⟩ => show win0_6.index t (1 : Fin 2) * 64 + 1 * (y 1).val = (y 1).val; omega
  rw [h]

/-- Window 7 stages its whole array at every point. -/
theorem whole7 (c : Dev nD) (t : Fin cfg0.N) : (iblk m c 7 t : S1x64.Idx → EReal) = V m c main_v14 := by
  have e := idx_whole t
  funext y
  show V m c main_v14 (((cfg0.win 7).blk t).view.emb y) = V m c main_v14 y
  have h : ((cfg0.win 7).blk t).view.emb y = y := by
    funext a; apply Fin.ext
    match a with
    | ⟨0, _⟩ => show win0_7.index t (0 : Fin 2) * 1 + 1 * (y 0).val = (y 0).val; omega
    | ⟨1, _⟩ => show win0_7.index t (1 : Fin 2) * 64 + 1 * (y 1).val = (y 1).val; omega
  rw [h]

/-- Window 8 stages its whole array at every point. -/
theorem whole8 (c : Dev nD) (t : Fin cfg0.N) : (iblk m c 8 t : S64x64.Idx → EReal) = V m c main_v9 := by
  have e := idx_whole t
  funext y
  show V m c main_v9 (((cfg0.win 8).blk t).view.emb y) = V m c main_v9 y
  have h : ((cfg0.win 8).blk t).view.emb y = y := by
    funext a; apply Fin.ext
    match a with
    | ⟨0, _⟩ => show win0_8.index t (0 : Fin 2) * 64 + 1 * (y 0).val = (y 0).val; omega
    | ⟨1, _⟩ => show win0_8.index t (1 : Fin 2) * 64 + 1 * (y 1).val = (y 1).val; omega
  rw [h]

/-- Window 9 stages its whole array at every point. -/
theorem whole9 (c : Dev nD) (t : Fin cfg0.N) : (iblk m c 9 t : S1x64.Idx → EReal) = V m c main_v15 := by
  have e := idx_whole t
  funext y
  show V m c main_v15 (((cfg0.win 9).blk t).view.emb y) = V m c main_v15 y
  have h : ((cfg0.win 9).blk t).view.emb y = y := by
    funext a; apply Fin.ext
    match a with
    | ⟨0, _⟩ => show win0_9.index t (0 : Fin 2) * 1 + 1 * (y 0).val = (y 0).val; omega
    | ⟨1, _⟩ => show win0_9.index t (1 : Fin 2) * 64 + 1 * (y 1).val = (y 1).val; omega
  rw [h]

/-- Window 10 stages its whole array at every point. -/
theorem whole10 (c : Dev nD) (t : Fin cfg0.N) : (iblk m c 10 t : S64x1024.Idx → EReal) = V m c main_v11 := by
  have e := idx_whole t
  funext y
  show V m c main_v11 (((cfg0.win 10).blk t).view.emb y) = V m c main_v11 y
  have h : ((cfg0.win 10).blk t).view.emb y = y := by
    funext a; apply Fin.ext
    match a with
    | ⟨0, _⟩ => show win0_10.index t (0 : Fin 2) * 64 + 1 * (y 0).val = (y 0).val; omega
    | ⟨1, _⟩ => show win0_10.index t (1 : Fin 2) * 1024 + 1 * (y 1).val = (y 1).val; omega
  rw [h]

/-- The block that grid point `t` writes back is the band of rows `512 t … 512 t + 511` of the adapter over the whole
    arrays, read through the output window's block at `t`. -/
theorem flushed_eq (c : Dev nD) (t : Fin cfg0.N) :
    (dats m 0 c).flushed 11 t = ((cfg0.win 11).blk t).view.read (Elt Ideal) (G m c) := by
  show (cfg0.win 11).cut (grid0.coords t) ((dats m 0 c).after 11 t) = _
  rw [after0_11]
  unfold out0_11
  rw [View.canon_unit_zero hz]
  simp only [View.ld_unit_zero (S := S512x768) hz, View.ld_unit_zero (S := S512x1024) hz, View.ld_unit_zero (S := S768x1024) hz,
    View.ld_unit_zero (S := S1024x64) hz, View.ld_unit_zero (S := S1x64) hz, View.ld_unit_zero (S := S64x64) hz,
    View.ld_unit_zero (S := S64x1024) hz]
  rw [Tile.tile_eq, whole2 m c t, whole3 m c t, whole4 m c t, whole5 m c t, whole6 m c t, whole7 m c t, whole8 m c t,
    whole9 m c t, whole10 m c t]
  obtain ⟨e0, e1, e2, e3, e4, e5⟩ := idx_rows t
  funext y
  show Adapter.rows (n := 512) (entryWeights m c) (iblk m c 0 t) (iblk m c 1 t) y
    = Adapter.rows (n := 32768) (entryWeights m c) (V m c main_v0) (V m c main_v1) (((cfg0.win 11).blk t).view.emb y)
  refine Adapter.rows_band _ _ _ _ _ _ y _ rfl (fun c' => ?_) (fun k => ?_) ?_
  · show V m c main_v0 (((cfg0.win 0).blk t).view.emb (ix2 (y 0) c')) = V m c main_v0 (ix2 ((((cfg0.win 11).blk t).view.emb y) 0) c')
    have h : ((cfg0.win 0).blk t).view.emb (ix2 (y 0) c') = ix2 ((((cfg0.win 11).blk t).view.emb y) 0) c' := by
      funext a; apply Fin.ext
      match a with
      | ⟨0, _⟩ => show win0_0.index t (0 : Fin 2) * 512 + 1 * (y 0).val = win0_11.index t (0 : Fin 2) * 512 + 1 * (y 0).val; omega
      | ⟨1, _⟩ => show win0_0.index t (1 : Fin 2) * 768 + 1 * c'.val = c'.val; omega
    rw [h]
    rfl
  · show V m c main_v1 (((cfg0.win 1).blk t).view.emb (ix2 (y 0) k)) = V m c main_v1 (ix2 ((((cfg0.win 11).blk t).view.emb y) 0) k)
    have h : ((cfg0.win 1).blk t).view.emb (ix2 (y 0) k) = ix2 ((((cfg0.win 11).blk t).view.emb y) 0) k := by
      funext a; apply Fin.ext
      match a with
      | ⟨0, _⟩ => show win0_1.index t (0 : Fin 2) * 512 + 1 * (y 0).val = win0_11.index t (0 : Fin 2) * 512 + 1 * (y 0).val; omega
      | ⟨1, _⟩ => show win0_1.index t (1 : Fin 2) * 1024 + 1 * k.val = k.val; omega
    rw [h]
    rfl
  · apply Fin.ext
    show (y 1).val = win0_11.index t (1 : Fin 2) * 1024 + 1 * (y 1).val
    omega

/-- An index of the array is in point `t`'s block iff each coordinate is in the block's range on its axis. -/
theorem mem_blk (t : Fin cfg0.N) (i : S32768x1024.Idx) :
    i ∈ ((cfg0.win 11).blk t).view.set ↔ ∀ a : Fin 2, win0_11.index t a * S512x1024.size a ≤ (i a).val
      ∧ (i a).val < win0_11.index t a * S512x1024.size a + S512x1024.size a := by
  show i ∈ ((View.whole main_v16).slice (win0_11.rect t)).set ↔ _
  rw [View.set_slice_whole, Rect.mem_set_unit]
  exact Iff.rfl

/-- Every row lies in the band of the point `row / 512`. -/
theorem cover (i : S32768x1024.Idx) :
    ∃ t : Fin cfg0.N, (cfg0.win 11).flush t = true ∧ i ∈ ((cfg0.win 11).blk t).view.set := by
  have h0 : (i 0).val < 32768 := (i 0).isLt
  have h1 : (i 1).val < 1024 := (i 1).isLt
  have hN : cfg0.N = 64 := N_0
  let t : Fin cfg0.N := ⟨(i 0).val / 512, by rw [hN]; omega⟩
  obtain ⟨e0, e1, -⟩ := idx_rows t
  have ht : t.val = (i 0).val / 512 := rfl
  refine ⟨t, flush0_11 t, ?_⟩
  rw [mem_blk]
  intro a
  match a with
  | ⟨0, _⟩ => show win0_11.index t (0 : Fin 2) * 512 ≤ (i 0).val ∧ (i 0).val < win0_11.index t (0 : Fin 2) * 512 + 512; omega
  | ⟨1, _⟩ => show win0_11.index t (1 : Fin 2) * 1024 ≤ (i 1).val ∧ (i 1).val < win0_11.index t (1 : Fin 2) * 1024 + 1024; omega

/-- After the region the result array holds the adapter over the 32768 rows: the 64 bands cover it. -/
theorem final (c : Dev nD) : (dats m 0 c).arrAt 11 cfg0.N = G m c :=
  (dats m 0 c).arrAt_eq_of_cover 11 (G m c) (fun t _ => flushed_eq m c t) (cover)

end Cert.KernelIdeal.Hand

end
-- ==== Proof.LibMergeAxes.lean ====
/-
  Three-axis arrays re-laid and reduced, read at an index (program-independent; imports only the library).

  An array [a, b, c] viewed as the matrix [n, c] with n = a * b has row p * b + q equal to row (p, q) of the array, and
  the matrix viewed back as the array likewise: the two indices sit at one row-major position. A matrix [a, b] given a
  trailing unit axis, [a, b, 1], reads (p, q) at (p, q, 0). An array with a unit axis broadcast along that axis reads
  the same entry whatever the coordinate on it — for each of the three axes. At the ideal values a sum along the last
  axis is the sum over that axis's coordinates, and a maximum along it the fold of max over them.
-/
import Idealize.ShloMosaic.Lib.ValueIdx
import Idealize.ShloMosaic.Lib.Pipeline.Value
import Idealize.ShloMosaic.PureOps.Ideal.Laws

noncomputable section

namespace Cert.MergeAxes

open Idealize.ShloMosaic Idealize.ShloMosaic.ValueIdx

variable {α : Type}

/-- [a, b, c] viewed as [n, c]: row r = p * b + q of the matrix is row (p, q) of the array. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (k : Fin c) (r : Fin n)
    (hr : r.val = p.val * b + q.val) :
    shapeCast ⟨2, ![n, c]⟩ x h (ix2 r k) = x (ix3 p q k) :=
  shapeCast_apply x h _ _ (by
    rw [Shape.rowMajor_val_three, Shape.rowMajor_val_two]
    show (p.val * b + q.val) * c + k.val = r.val * c + k.val
    rw [hr])

/-- [n, c] viewed as [a, b, c]: row (p, q) of the array is row r = p * b + q of the matrix. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) :
    shapeCast ⟨3, ![a, b, c]⟩ x h (ix3 p q k) = x (ix2 r k) :=
  shapeCast_apply x h _ _ (by
    rw [Shape.rowMajor_val_two, Shape.rowMajor_val_three]
    show r.val * c + k.val = (p.val * b + q.val) * c + k.val
    rw [hr])

/-- A matrix [a, b] given a trailing unit axis reads, at (p, q, z), its entry (p, q). -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (z : Fin 1) :
    shapeCast ⟨3, ![a, b, 1]⟩ x h (ix3 p q z) = x (ix2 p q) :=
  shapeCast_apply x h _ _ (by
    have hz : z.val = 0 := by omega
    rw [Shape.rowMajor_val_two, Shape.rowMajor_val_three]
    show p.val * b + q.val = (p.val * b + q.val) * 1 + z.val
    rw [hz, Nat.mul_one, Nat.add_zero])

/-- [1, b, c] broadcast along axis 0 reads, at (p, q, k), the entry (0, q, k). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (k : Fin c) :
    broadcastTo ⟨3, ![a, b, c]⟩ x h (ix3 p q k) = x (ix3 (0 : Fin 1) q k) :=
  broadcastTo_apply x h _ _ (fun d => match d with
    | ⟨0, _⟩ => by
      show 0 = if (1 : Nat) = 1 then 0 else p.val
      rw [if_pos rfl]
    | ⟨1, _⟩ => by
      show q.val = if b = 1 then 0 else q.val
      by_cases hb : b = 1
      · rw [if_pos hb]; have := q.isLt; omega
      · rw [if_neg hb]
    | ⟨2, _⟩ => by
      show k.val = if c = 1 then 0 else k.val
      by_cases hc : c = 1
      · rw [if_pos hc]; have := k.isLt; omega
      · rw [if_neg hc])

/-- [a, 1, c] broadcast along axis 1 reads, at (p, q, k), the entry (p, 0, k). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ x h (ix3 p q k) = x (ix3 p (0 : Fin 1) k) :=
  broadcastTo_apply x h _ _ (fun d => match d with
    | ⟨0, _⟩ => by
      show p.val = if a = 1 then 0 else p.val
      by_cases ha : a = 1
      · rw [if_pos ha]; have := p.isLt; omega
      · rw [if_neg ha]
    | ⟨1, _⟩ => by
      show 0 = if (1 : Nat) = 1 then 0 else q.val
      rw [if_pos rfl]
    | ⟨2, _⟩ => by
      show k.val = if c = 1 then 0 else k.val
      by_cases hc : c = 1
      · rw [if_pos hc]; have := k.isLt; omega
      · rw [if_neg hc])

/-- [a, b, 1] broadcast along axis 2 reads, at (p, q, k), the entry (p, q, 0). -/
theorem broadcastTo_ab1_abc_apply {a b c : ℕ} (x : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ x h (ix3 p q k) = x (ix3 p q (0 : Fin 1)) :=
  broadcastTo_apply x h _ _ (fun d => match d with
    | ⟨0, _⟩ => by
      show p.val = if a = 1 then 0 else p.val
      by_cases ha : a = 1
      · rw [if_pos ha]; have := p.isLt; omega
      · rw [if_neg ha]
    | ⟨1, _⟩ => by
      show q.val = if b = 1 then 0 else q.val
      by_cases hb : b = 1
      · rw [if_pos hb]; have := q.isLt; omega
      · rw [if_neg hb]
    | ⟨2, _⟩ => by
      show 0 = if (1 : Nat) = 1 then 0 else k.val
      rw [if_pos rfl])

/-- Over the kept entry (p, q), the index with coordinate k put back on the reduced last axis is (p, q, k). -/
theorem lift_last {a b c : ℕ} (h : (⟨3, ![a, b, c]⟩ : Shape).Reduces [2] ⟨2, ![a, b]⟩) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-- At the ideal values the sum along the last axis, at (p, q), is the sum of the entries (p, q, k). -/
theorem multiReduction_add_last {a b c : ℕ} {φ : FTy} (X : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ X acc h hφ hacc (ix2 p q) = ∑ k : Fin c, X (ix3 p q k) := by
  refine (Ideal.multiReduction_add_single X acc h hφ hacc (ix2 p q)).trans ?_
  exact Finset.sum_congr rfl fun k _ => congrArg X (lift_last h p q k)

/-- At the ideal values the maximum along the last axis, at (p, q), is the fold of max over the entries (p, q, k) from
    the value of the accumulator's pattern. -/
theorem multiReduction_max_last {a b c : ℕ} {φ : FTy} (X : FVec Ideal ⟨3, ![a, b, c]⟩ φ) (acc : BitVec φ.bits)
    (h : (⟨3, ![a, b, c]⟩ : Shape).Reduces [2] ⟨2, ![a, b]⟩) (hφ : FKind.Formats φ)
    (hacc : acc = FKind.maximumf.neutral φ hφ) (p : Fin a) (q : Fin b) :
    multiReduction .maximumf [2] ⟨2, ![a, b]⟩ X acc h hφ hacc (ix2 p q)
      = (Finset.univ : Finset (Fin c)).fold max (Ideal.ofBits φ acc) (fun k => X (ix3 p q k)) := by
  refine (Ideal.multiReduction_maximumf_single X acc h hφ hacc (ix2 p q)).trans ?_
  have e : (X ∘ h.lift (ix2 p q))
      = fun k : Fin ((⟨3, ![a, b, c]⟩ : Shape).size 2) => X (ix3 p q (⟨k.val, k.isLt⟩ : Fin c)) :=
    funext fun k => congrArg X (lift_last h p q k)
  rw [e]
  rfl

end Cert.MergeAxes

end
-- ==== Proof.Entry.lean ====
/-
  The arrays the region finds, read at an entry in terms of the argument arrays.

  Before the region the host merges the batch and sequence axes of the features and of the residual (row
  `b * 2048 + s` of the matrix is row `(b, s)` of the array), transposes each weight matrix and rounds it to the shorter
  float format (the identity on the extended reals), and views each of the four vectors as a one-row matrix.
-/
import proofs.«147435_j67276367724646_1_alg».proof.Proof.Gen.KernelIdeal.Frame
import proofs.«147435_j67276367724646_1_alg».proof.Proof.LibMergeAxes
import Idealize.ShloMosaic.Lib.ValueLayout
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The features as a matrix of 32768 rows: the argument with its first two axes merged. -/
theorem feat_array (c : Dev nD) : (V m c main_v0 : S32768x768.Idx → EReal)
    = shapeCast S32768x768 ((m ((c : Thread nD τ).loc main_arg0)) : S16x2048x768.Idx → EReal) shapeCasts_S16x2048x768_S32768x768 := by
  show StableHlo.after hostOps0 (fun b => m (c, b)) (Proc.devRef .tc main_v0) = _
  after_results
  rfl

/-- Row `b * 2048 + s` of the features matrix is row `(b, s)` of the argument. -/
theorem feat_entry (c : Dev nD) (b : Fin 16) (s : Fin 2048) (r : Fin 32768) (hr : r.val = b.val * 2048 + s.val) (k : Fin 768) :
    (V m c main_v0 : S32768x768.Idx → EReal) (ix2 r k) = ((m ((c : Thread nD τ).loc main_arg0)) : S16x2048x768.Idx → EReal) (ix3 b s k) := by
  rw [feat_array m c]
  exact Cert.MergeAxes.shapeCast_abc_nc_apply _ _ b s k r hr

/-- The residual as a matrix of 32768 rows. -/
theorem res_array (c : Dev nD) : (V m c main_v1 : S32768x1024.Idx → EReal)
    = shapeCast S32768x1024 ((m ((c : Thread nD τ).loc main_arg1)) : S16x2048x1024.Idx → EReal) shapeCasts_S16x2048x1024_S32768x1024 := by
  show StableHlo.after hostOps0 (fun b => m (c, b)) (Proc.devRef .tc main_v1) = _
  after_results
  rfl

/-- Row `b * 2048 + s` of the residual matrix is row `(b, s)` of the argument. -/
theorem res_entry (c : Dev nD) (b : Fin 16) (s : Fin 2048) (r : Fin 32768) (hr : r.val = b.val * 2048 + s.val) (k : Fin 1024) :
    (V m c main_v1 : S32768x1024.Idx → EReal) (ix2 r k) = ((m ((c : Thread nD τ).loc main_arg1)) : S16x2048x1024.Idx → EReal) (ix3 b s k) := by
  rw [res_array m c]
  exact Cert.MergeAxes.shapeCast_abc_nc_apply _ _ b s k r hr

/-- The projection's weights as the region finds them: the argument transposed. -/
theorem proj_array (c : Dev nD) : (V m c main_v3 : S768x1024.Idx → EReal)
    = transpose S768x1024 [1, 0] ((m ((c : Thread nD τ).loc main_arg2)) : S1024x768.Idx → EReal) transposes_S1024x768_S768x1024_1_0 := by
  show StableHlo.after hostOps0 (fun b => m (c, b)) (Proc.devRef .tc main_v3) = _
  after_results
  rfl

theorem proj_entry (c : Dev nD) (q : Fin 1024) (k : Fin 768) :
    (V m c main_v3 : S768x1024.Idx → EReal) (ix2 k q) = ((m ((c : Thread nD τ).loc main_arg2)) : S1024x768.Idx → EReal) (ix2 q k) := by
  rw [proj_array m c]
  exact transpose_ix2_apply _ _ k q

/-- The lowering's weights: the argument transposed. -/
theorem down_array (c : Dev nD) : (V m c main_v5 : S1024x64.Idx → EReal)
    = transpose S1024x64 [1, 0] ((m ((c : Thread nD τ).loc main_arg3)) : S64x1024.Idx → EReal) transposes_S64x1024_S1024x64_1_0 := by
  show StableHlo.after hostOps0 (fun b => m (c, b)) (Proc.devRef .tc main_v5) = _
  after_results
  rfl

theorem down_entry (c : Dev nD) (d : Fin 64) (q : Fin 1024) :
    (V m c main_v5 : S1024x64.Idx → EReal) (ix2 q d) = ((m ((c : Thread nD τ).loc main_arg3)) : S64x1024.Idx → EReal) (ix2 d q) := by
  rw [down_array m c]
  exact transpose_ix2_apply _ _ q d

/-- The gate's first matrix: the argument transposed. -/
theorem l1_array (c : Dev nD) : (V m c main_v7 : S64x64.Idx → EReal)
    = transpose S64x64 [1, 0] ((m ((c : Thread nD τ).loc main_arg6)) : S64x64.Idx → EReal) transposes_S64x64_S64x64_1_0 := by
  show StableHlo.after hostOps0 (fun b => m (c, b)) (Proc.devRef .tc main_v7) = _
  after_results
  rfl

theorem l1_entry (c : Dev nD) (e d : Fin 64) :
    (V m c main_v7 : S64x64.Idx → EReal) (ix2 d e) = ((m ((c : Thread nD τ).loc main_arg6)) : S64x64.Idx → EReal) (ix2 e d) := by
  rw [l1_array m c]
  exact transpose_ix2_apply _ _ d e

/-- The gate's second matrix: the argument transposed. -/
theorem l2_array (c : Dev nD) : (V m c main_v9 : S64x64.Idx → EReal)
    = transpose S64x64 [1, 0] ((m ((c : Thread nD τ).loc main_arg8)) : S64x64.Idx → EReal) transposes_S64x64_S64x64_1_0 := by
  show StableHlo.after hostOps0 (fun b => m (c, b)) (Proc.devRef .tc main_v9) = _
  after_results
  rfl

theorem l2_entry (c : Dev nD) (e d : Fin 64) :
    (V m c main_v9 : S64x64.Idx → EReal) (ix2 d e) = ((m ((c : Thread nD τ).loc main_arg8)) : S64x64.Idx → EReal) (ix2 e d) := by
  rw [l2_array m c]
  exact transpose_ix2_apply _ _ d e

/-- The raising's weights: the argument transposed. -/
theorem up_array (c : Dev nD) : (V m c main_v11 : S64x1024.Idx → EReal)
    = transpose S64x1024 [1, 0] ((m ((c : Thread nD τ).loc main_arg10)) : S1024x64.Idx → EReal) transposes_S1024x64_S64x1024_1_0 := by
  show StableHlo.after hostOps0 (fun b => m (c, b)) (Proc.devRef .tc main_v11) = _
  after_results
  rfl

theorem up_entry (c : Dev nD) (q : Fin 1024) (d : Fin 64) :
    (V m c main_v11 : S64x1024.Idx → EReal) (ix2 d q) = ((m ((c : Thread nD τ).loc main_arg10)) : S1024x64.Idx → EReal) (ix2 q d) := by
  rw [up_array m c]
  exact transpose_ix2_apply _ _ d q

/-- The scale as a one-row matrix. -/
theorem gamma_array (c : Dev nD) : (V m c main_v12 : S1x64.Idx → EReal)
    = shapeCast S1x64 ((m ((c : Thread nD τ).loc main_arg4)) : S64.Idx → EReal) shapeCasts_S64_S1x64 := by
  show StableHlo.after hostOps0 (fun b => m (c, b)) (Proc.devRef .tc main_v12) = _
  after_results
  rfl

theorem gamma_entry (c : Dev nD) (d : Fin 64) :
    (V m c main_v12 : S1x64.Idx → EReal) (ix2 (0 : Fin 1) d) = ((m ((c : Thread nD τ).loc main_arg4)) : S64.Idx → EReal) (ix1 d) := by
  rw [gamma_array m c]
  exact shapeCast_a_1a_apply _ _ 0 d

/-- The shift as a one-row matrix. -/
theorem beta_array (c : Dev nD) : (V m c main_v13 : S1x64.Idx → EReal)
    = shapeCast S1x64 ((m ((c : Thread nD τ).loc main_arg5)) : S64.Idx → EReal) shapeCasts_S64_S1x64 := by
  show StableHlo.after hostOps0 (fun b => m (c, b)) (Proc.devRef .tc main_v13) = _
  after_results
  rfl

theorem beta_entry (c : Dev nD) (d : Fin 64) :
    (V m c main_v13 : S1x64.Idx → EReal) (ix2 (0 : Fin 1) d) = ((m ((c : Thread nD τ).loc main_arg5)) : S64.Idx → EReal) (ix1 d) := by
  rw [beta_array m c]
  exact shapeCast_a_1a_apply _ _ 0 d

/-- The first bias as a one-row matrix. -/
theorem b1_array (c : Dev nD) : (V m c main_v14 : S1x64.Idx → EReal)
    = shapeCast S1x64 ((m ((c : Thread nD τ).loc main_arg7)) : S64.Idx → EReal) shapeCasts_S64_S1x64 := by
  show StableHlo.after hostOps0 (fun b => m (c, b)) (Proc.devRef .tc main_v14) = _
  after_results
  rfl

theorem b1_entry (c : Dev nD) (d : Fin 64) :
    (V m c main_v14 : S1x64.Idx → EReal) (ix2 (0 : Fin 1) d) = ((m ((c : Thread nD τ).loc main_arg7)) : S64.Idx → EReal) (ix1 d) := by
  rw [b1_array m c]
  exact shapeCast_a_1a_apply _ _ 0 d

/-- The second bias as a one-row matrix. -/
theorem b2_array (c : Dev nD) : (V m c main_v15 : S1x64.Idx → EReal)
    = shapeCast S1x64 ((m ((c : Thread nD τ).loc main_arg9)) : S64.Idx → EReal) shapeCasts_S64_S1x64 := by
  show StableHlo.after hostOps0 (fun b => m (c, b)) (Proc.devRef .tc main_v15) = _
  after_results
  rfl

theorem b2_entry (c : Dev nD) (d : Fin 64) :
    (V m c main_v15 : S1x64.Idx → EReal) (ix2 (0 : Fin 1) d) = ((m ((c : Thread nD τ).loc main_arg9)) : S64.Idx → EReal) (ix1 d) := by
  rw [b2_array m c]
  exact shapeCast_a_1a_apply _ _ 0 d

end Cert.KernelIdeal.Entry

end
-- ==== Proof.KernelRun.lean ====
/-
  The kernel's run, read: its result array is the adapter over the batch, of the argument arrays.

  After the region the host views the matrix of 32768 rows back as an array of 16 sequences of 2048 rows. Row
  `b * 2048 + s` of the matrix is the adapter's row of row `b * 2048 + s` of the merged inputs, which is row `(b, s)` of
  the arguments; and the weights the region finds — transposed matrices, one-row vectors — are the arguments' weights
  entry by entry.
-/
import proofs.«147435_j67276367724646_1_alg».proof.Proof.Blocks
import proofs.«147435_j67276367724646_1_alg».proof.Proof.Entry

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The weights the region finds are the arguments' weights. -/
theorem weights_eq (c : Dev nD) : entryWeights m c = (Adapter.argWeights (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  refine Adapter.Weights.ext ?_ ?_ ?_ ?_ ?_ ?_ ?_ ?_ ?_
  · funext q k; exact Entry.proj_entry m c q k
  · funext d q; exact Entry.down_entry m c d q
  · funext d; exact Entry.gamma_entry m c d
  · funext d; exact Entry.beta_entry m c d
  · funext e d; exact Entry.l1_entry m c e d
  · funext e; exact Entry.b1_entry m c e
  · funext e d; exact Entry.l2_entry m c e d
  · funext e; exact Entry.b2_entry m c e
  · funext q d; exact Entry.up_entry m c q d

/-- The matrix of 32768 adapter rows viewed as 16 sequences of 2048 rows is the adapter over the batch. -/
theorem batch_eq (c : Dev nD) :
    shapeCast S16x2048x1024 (G m c) shapeCasts_S32768x1024_S16x2048x1024
      = Adapter.result (Adapter.argWeights (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg0)) (m ((c : Thread nD τ).loc main_arg1)) := by
  funext i
  obtain ⟨b, s, q, rfl⟩ : ∃ (b : Fin 16) (s : Fin 2048) (q : Fin 1024), i = ix3 b s q := ⟨i 0, i 1, i 2, eq_ix3 i⟩
  have hr : b.val * 2048 + s.val < 32768 := by have := b.isLt; have := s.isLt; omega
  rw [Cert.MergeAxes.shapeCast_nc_abc_apply (G m c) _ b s q ⟨b.val * 2048 + s.val, hr⟩ rfl]
  have hX : (fun k : Fin 768 => (V m c main_v0 : S32768x768.Idx → EReal) (ix2 (⟨b.val * 2048 + s.val, hr⟩ : Fin 32768) k))
      = fun k => ((m ((c : Thread nD τ).loc main_arg0)) : S16x2048x768.Idx → EReal) (ix3 b s k) :=
    funext fun k => Entry.feat_entry m c b s ⟨b.val * 2048 + s.val, hr⟩ rfl k
  have hR : (fun k : Fin 1024 => (V m c main_v1 : S32768x1024.Idx → EReal) (ix2 (⟨b.val * 2048 + s.val, hr⟩ : Fin 32768) k))
      = fun k => ((m ((c : Thread nD τ).loc main_arg1)) : S16x2048x1024.Idx → EReal) (ix3 b s k) :=
    funext fun k => Entry.res_entry m c b s ⟨b.val * 2048 + s.val, hr⟩ rfl k
  show Adapter.row (entryWeights m c) (fun k => (V m c main_v0 : S32768x768.Idx → EReal) (ix2 (⟨b.val * 2048 + s.val, hr⟩ : Fin 32768) k))
      (fun k => (V m c main_v1 : S32768x1024.Idx → EReal) (ix2 (⟨b.val * 2048 + s.val, hr⟩ : Fin 32768) k)) q
    = Adapter.row (Adapter.argWeights (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (fun k => ((m ((c : Thread nD τ).loc main_arg0)) : S16x2048x768.Idx → EReal) (ix3 b s k))
      (fun k => ((m ((c : Thread nD τ).loc main_arg1)) : S16x2048x1024.Idx → EReal) (ix3 b s k)) q
  rw [hX, hR, weights_eq m c]

/-- What the lines after the region leave in the result buffer. -/
theorem result_after (c : Dev nD) :
    Pipeline.afterTail₀ cfgs (dats m) 0 (V0 m) [hostOps1] c main_v17
      = Adapter.result (Adapter.argWeights (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg0)) (m ((c : Thread nD τ).loc main_arg1)) := by
  have hA : Pipeline.withArrays spec0 c (V0 m c) (fun w => (dats m 0 c).arrAt w cfg0.N) (Proc.devRef .tc main_v16) = G m c :=
    (Pipeline.withArrays_arr spec0 launch0.win.arr_inj c _ _ 11).trans (final m c)
  unfold Pipeline.afterTail₀
  show StableHlo.after hostOps1 _ (Proc.devRef .tc main_v17) = _
  after_results
  show shapeCast S16x2048x1024 (Pipeline.withArrays spec0 c (V0 m c) (fun w => (dats m 0 c).arrAt w cfg0.N)
      (Proc.devRef .tc main_v16)) shapeCasts_S32768x1024_S16x2048x1024 = _
  rw [hA]
  exact batch_eq m c

/-- The run, read: every weakly fair execution of the kernel's program ends with the result array at the adapter over
    the batch, of the argument arrays, and with the argument arrays unchanged. -/
theorem run : θ_run defs (onTc (τ := τ) (main (F := Ideal))) ⟨m, fun _ => 0, ρ⟩ fun r => ∀ c : Dev nD,
      r.2.mem ((c : Thread nD τ).loc main_v17) = Adapter.result (Adapter.argWeights (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c =>
    ⟨((h c).2 main_v17 (Pipeline.mem_restRefs_of main_v17 (by decide) (by decide))).trans (result_after m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Cert.KernelIdeal.Hand

end
-- ==== Proof.RefValue.lean ====
/-
  The reference is the adapter: its result array holds, at `(b, s, q)`, the adapter's row `(b, s)` at coordinate `q`.

  The reference computes on whole three-axis arrays. Each of its named intermediate values is read here at an index as
  the corresponding quantity of the one row the index lies in: the lowered row, its mean and variance (each kept as a
  unit last axis and broadcast back), the normalised row, the two linear maps, the gated activation, and the result.
  The host's sums start from the zero literal, which adds nothing, and its gate spells the logistic function out as
  `1 / (1 + exp (-t))` with the literal 1, which is the logistic function of the extended reals.
-/
import proofs.«147435_j67276367724646_1_alg».proof.Proof.Gen.ReferenceIdeal.Read
import proofs.«147435_j67276367724646_1_alg».proof.Proof.Adapter

noncomputable section

namespace Cert.ReferenceIdeal.RefValue

open Idealize.ShloMosaic Idealize.ShloMosaic.ValueIdx Cert.ReferenceIdeal Cert.ReferenceIdeal.Read Cert.Adapter

variable (x0 : (⟨S16x2048x768, .f32⟩ : BufTy).Contents (Elt Ideal)) (x1 : (⟨S16x2048x1024, .f32⟩ : BufTy).Contents (Elt Ideal))
  (x2 : (⟨S1024x768, .f32⟩ : BufTy).Contents (Elt Ideal)) (x3 : (⟨S64x1024, .f32⟩ : BufTy).Contents (Elt Ideal))
  (x4 x5 : (⟨S64, .f32⟩ : BufTy).Contents (Elt Ideal)) (x6 : (⟨S64x64, .f32⟩ : BufTy).Contents (Elt Ideal))
  (x7 : (⟨S64, .f32⟩ : BufTy).Contents (Elt Ideal)) (x8 : (⟨S64x64, .f32⟩ : BufTy).Contents (Elt Ideal))
  (x9 : (⟨S64, .f32⟩ : BufTy).Contents (Elt Ideal)) (x10 : (⟨S1024x64, .f32⟩ : BufTy).Contents (Elt Ideal))

/-- The reference's weights. -/
abbrev W : Weights := argWeights x2 x3 x4 x5 x6 x7 x8 x9 x10

/-- Row `(b, s)` of the features. -/
abbrev feat (b : Fin 16) (s : Fin 2048) : Fin 768 → EReal := fun c => x0 (ix3 b s c)

/-- The lowered array at `(b, s, d)` is row `(b, s)` projected and lowered, at `d`. -/
theorem lowered_eq (i : S16x2048x64.Idx) :
    val_main_v1 (F := Ideal) x0 x2 x3 i = lowered (W x2 x3 x4 x5 x6 x7 x8 x9 x10) (feat x0 (i 0) (i 1)) (i 2) := by
  rw [val_main_v1_apply]
  simp only [val_main_v0_apply, at3_eq x0, at2_eq x2, at2_eq x3]
  rfl

/-- The mean, kept with a unit last axis, at `(b, s, 0)`. -/
theorem mean_eq (i : S16x2048x1.Idx) :
    val_main_v5 (F := Ideal) x0 x2 x3 i = mean (lowered (W x2 x3 x4 x5 x6 x7 x8 x9 x10) (feat x0 (i 0) (i 1))) := by
  rw [val_main_v5_apply, val_main_v3_apply, val_main_v2_apply, val_main_v4_apply, val_main_cst_apply, val_main_cst_0_apply]
  simp only [lowered_eq x0 x2 x3 x4 x5 x6 x7 x8 x9 x10, Ideal.ofBits_def, Ideal.ofBits_zero_f32, zero_add]
  rfl

/-- The variance, kept with a unit last axis, at `(b, s, 0)`. -/
theorem variance_eq (i : S16x2048x1.Idx) :
    val_main_v12 (F := Ideal) x0 x2 x3 i = variance (lowered (W x2 x3 x4 x5 x6 x7 x8 x9 x10) (feat x0 (i 0) (i 1))) := by
  rw [val_main_v12_apply, val_main_v10_apply, val_main_v9_apply, val_main_v11_apply, val_main_cst_1_apply, val_main_cst_2_apply]
  simp only [val_main_v8_apply, val_main_v7_apply, val_main_v6_apply, lowered_eq x0 x2 x3 x4 x5 x6 x7 x8 x9 x10,
    mean_eq x0 x2 x3 x4 x5 x6 x7 x8 x9 x10, Ideal.ofBits_def, Ideal.ofBits_zero_f32, zero_add]
  rfl

/-- The normalised array at `(b, s, d)`. -/
theorem normed_eq (i : S16x2048x64.Idx) :
    val_main_v25 (F := Ideal) x0 x2 x3 x4 x5 i
      = normed (W x2 x3 x4 x5 x6 x7 x8 x9 x10) (lowered (W x2 x3 x4 x5 x6 x7 x8 x9 x10) (feat x0 (i 0) (i 1))) (i 2) := by
  rw [val_main_v25_apply, val_main_v22_apply, val_main_v19_apply, val_main_v14_apply, val_main_v13_apply, val_main_v18_apply,
    val_main_v17_apply, val_main_v16_apply, val_main_v15_apply, val_main_cst_3_apply, val_main_v21_apply, val_main_v20_apply,
    val_main_v24_apply, val_main_v23_apply, lowered_eq x0 x2 x3 x4 x5 x6 x7 x8 x9 x10, mean_eq x0 x2 x3 x4 x5 x6 x7 x8 x9 x10,
    variance_eq x0 x2 x3 x4 x5 x6 x7 x8 x9 x10, at1_eq x4, at1_eq x5]
  rfl

/-- The gate's first linear map at `(b, s, e)`. -/
theorem pre1_eq (i : S16x2048x64.Idx) :
    val_main_v29 (F := Ideal) x0 x2 x3 x4 x5 x6 x7 i
      = pre1 (W x2 x3 x4 x5 x6 x7 x8 x9 x10)
          (normed (W x2 x3 x4 x5 x6 x7 x8 x9 x10) (lowered (W x2 x3 x4 x5 x6 x7 x8 x9 x10) (feat x0 (i 0) (i 1)))) (i 2) := by
  rw [val_main_v29_apply, val_main_v26_apply, val_main_v28_apply, val_main_v27_apply, at1_eq x7]
  simp only [normed_eq x0 x2 x3 x4 x5 x6 x7 x8 x9 x10, at2_eq x6]
  rfl

/-- The gate's second linear map at `(b, s, e)`. -/
theorem pre2_eq (i : S16x2048x64.Idx) :
    val_main_v40 (F := Ideal) x0 x2 x3 x4 x5 x8 x9 i
      = pre2 (W x2 x3 x4 x5 x6 x7 x8 x9 x10)
          (normed (W x2 x3 x4 x5 x6 x7 x8 x9 x10) (lowered (W x2 x3 x4 x5 x6 x7 x8 x9 x10) (feat x0 (i 0) (i 1)))) (i 2) := by
  rw [val_main_v40_apply, val_main_v37_apply, val_main_v39_apply, val_main_v38_apply, at1_eq x9]
  simp only [normed_eq x0 x2 x3 x4 x5 x6 x7 x8 x9 x10, at2_eq x8]
  rfl

/-- The gated activation at `(b, s, e)`: the host's `1 / (1 + exp (-t))` is the logistic function. -/
theorem gated_eq (i : S16x2048x64.Idx) :
    val_main_v41 (F := Ideal) x0 x2 x3 x4 x5 x6 x7 x8 x9 i
      = gated (W x2 x3 x4 x5 x6 x7 x8 x9 x10)
          (normed (W x2 x3 x4 x5 x6 x7 x8 x9 x10) (lowered (W x2 x3 x4 x5 x6 x7 x8 x9 x10) (feat x0 (i 0) (i 1)))) (i 2) := by
  rw [val_main_v41_apply, val_main_v36_apply, val_main_v35_apply, val_main_v34_apply, val_main_cst_5_apply, val_main_v33_apply,
    val_main_v32_apply, val_main_cst_4_apply, val_main_v31_apply, val_main_v30_apply, pre1_eq x0 x2 x3 x4 x5 x6 x7 x8 x9 x10,
    pre2_eq x0 x2 x3 x4 x5 x6 x7 x8 x9 x10, Ideal.ofBits_def, ofBits_one]
  rfl

/-- The result at `(b, s, q)`. -/
theorem result_apply (i : S16x2048x1024.Idx) :
    val_main_v43 (F := Ideal) x0 x1 x2 x3 x4 x5 x6 x7 x8 x9 x10 i
      = entry (W x2 x3 x4 x5 x6 x7 x8 x9 x10) x0 x1 (i 0) (i 1) (i 2) := by
  rw [val_main_v43_apply, val_main_v42_apply, at3_eq x1]
  simp only [gated_eq x0 x2 x3 x4 x5 x6 x7 x8 x9 x10, at2_eq x10]
  rfl

/-- The reference's result array is the adapter over the batch. -/
theorem result_eq :
    val_main_v43 (F := Ideal) x0 x1 x2 x3 x4 x5 x6 x7 x8 x9 x10 = result (argWeights x2 x3 x4 x5 x6 x7 x8 x9 x10) x0 x1 :=
  funext fun i => result_apply x0 x1 x2 x3 x4 x5 x6 x7 x8 x9 x10 i

end Cert.ReferenceIdeal.RefValue

end
-- ==== Proof.lean ====
/-
  A fused bottleneck adapter against its plain reference, equal over the extended reals.

  The kernel walks 64 tiles of 512 rows. For each row it projects the 768 features to 1024 coordinates and lowers them
  to 64 (two matrix products, the weights held transposed), normalises the 64 coordinates by their mean and variance
  (sums along the row divided by 64, the literal ε added under the reciprocal square root), scales and shifts them,
  forms two linear maps of the result, passes the first through `t ↦ t · logistic t` and multiplies by the second, raises
  the product back to 1024 coordinates and adds the residual's row. The reference computes the same on the whole
  [16, 2048, ·] arrays with the weights as given. Over the extended reals a change of float format is the identity, a
  matrix product is the plain sum of products whatever its tiling or the side the weights are transposed on, the host's
  sum from the zero literal is the sum, and the host's `1 / (1 + exp (-t))` is the logistic function; the literals 64
  and ε are the same words in both programs. So both result arrays are one function of the arguments, the adapter
  applied row by row (`Cert.Adapter.result`). No algebraic law beyond re-indexing a sum is used, so the proof never
  opens the precondition.

  The frames of the two kernel programs are the generated ones; the reference's frame is its generated run with the
  result dropped; the idealization rewrote nothing, so `preserves` is trivial; `algebraic` sets the kernel's run
  (`Cert.KernelIdeal.Hand.run`) beside the reference's run read by `Cert.ReferenceIdeal.RefValue.result_eq`.
-/
import proofs.«147435_j67276367724646_1_alg».proof.Defs
import proofs.«147435_j67276367724646_1_alg».proof.Proof.Gen.Kernel
import proofs.«147435_j67276367724646_1_alg».proof.Proof.Gen.Kernel.Skeleton
import proofs.«147435_j67276367724646_1_alg».proof.Proof.Gen.Kernel.Launch
import proofs.«147435_j67276367724646_1_alg».proof.Proof.Gen.Kernel.Points
import proofs.«147435_j67276367724646_1_alg».proof.Proof.Gen.Kernel.Frame
import proofs.«147435_j67276367724646_1_alg».proof.Proof.Gen.KernelIdeal
import proofs.«147435_j67276367724646_1_alg».proof.Proof.Gen.KernelIdeal.Skeleton
import proofs.«147435_j67276367724646_1_alg».proof.Proof.Gen.KernelIdeal.Launch
import proofs.«147435_j67276367724646_1_alg».proof.Proof.Gen.KernelIdeal.Points
import proofs.«147435_j67276367724646_1_alg».proof.Proof.Gen.KernelIdeal.Frame
import proofs.«147435_j67276367724646_1_alg».proof.Proof.Gen.ReferenceIdeal
import proofs.«147435_j67276367724646_1_alg».proof.Proof.Gen.ReferenceIdeal.Read
import proofs.«147435_j67276367724646_1_alg».proof.Proof.Gen.Pre_finite_inputs
import proofs.«147435_j67276367724646_1_alg».proof.Proof.KernelRun
import proofs.«147435_j67276367724646_1_alg».proof.Proof.RefValue
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel :=
  fun m ρ _ => Cert.Kernel.Gen.frame m ρ

/-- The idealized kernel runs and keeps its arguments. -/
theorem frame_kernelIdeal : Cert.frame_KernelIdeal :=
  fun m ρ _ => Cert.KernelIdeal.Gen.frame m ρ

/-- The reference runs and keeps its arguments: its run with the result dropped. -/
theorem frame_reference : Cert.frame_ReferenceIdeal :=
  fun m ρ _ => (θ_run Cert.ReferenceIdeal.defs _ _).mono (fun _ h c => (h c).2)
    (Cert.ReferenceIdeal.Value.run (F := Ideal) m ρ)

/-- The idealization rewrote no operation. -/
theorem preserves : Cert.preserves_Kernel_KernelIdeal := trivial

/-- Both programs end with the adapter over the batch, of arguments that agree. -/
theorem algebraic : Cert.algebraic_KernelIdeal_ReferenceIdeal := by
  intro m ρ m' ρ' _ hagree
  refine ⟨fun c => Cert.Adapter.result (Cert.Adapter.argWeights (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) (m ((c.tc : Thread Cert.KernelIdeal.nD Cert.KernelIdeal.τ).loc Cert.KernelIdeal.main_arg0)) (m ((c.tc : Thread Cert.KernelIdeal.nD Cert.KernelIdeal.τ).loc Cert.KernelIdeal.main_arg1)), Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v43_eq, Cert.ReferenceIdeal.RefValue.result_eq, h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
